-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part3 {F : FTy → Type} [FloatOps F] (main_arg12 : FVec F S128 .f32) (main_arg13 : FVec F S_ .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S_ .f32 := Host.absf main_arg13
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S_ .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S800000x128 : Shape := ⟨2, ![800000, 128]⟩
abbrev S1x1 : Shape := ⟨2, ![1, 1]⟩
abbrev S5000 : Shape := ⟨1, ![5000]⟩
abbrev S5000x1 : Shape := ⟨2, ![5000, 1]⟩

abbrev nBuf : Space → Nat
  | .hbm => 86
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S1x1, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S1x1, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S1x1, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x1, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x1, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S_S1x1 : S_.ShapeCasts S1x1
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩
abbrev S1x128 : Shape := ⟨2, ![1, 128]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S_, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S1x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S800000x1, .f32⟩
  | 36 => ⟨S800000, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S50000x128, .f32⟩
  | 56 => ⟨S_, .f32⟩
  | 57 => ⟨S50000, .f32⟩
  | 58 => ⟨S50000x1, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S50000x128, .f32⟩
  | 69 => ⟨S50000x128, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S800000x1, .f32⟩
  | 86 => ⟨S800000, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000, .f32⟩
  | 108 => ⟨S50000x1, .f32⟩
  | 109 => ⟨S50000x1, .f32⟩
  | 110 => ⟨S_, .f32⟩
  | 111 => ⟨S50000x1, .f32⟩
  | 112 => ⟨S50000x1, .f32⟩
  | 113 => ⟨S50000x128, .f32⟩
  | 114 => ⟨S50000x128, .f32⟩
  | 115 => ⟨S_, .f32⟩
  | 116 => ⟨S50000x128, .f32⟩
  | 117 => ⟨S50000x128, .i1⟩
  | 118 => ⟨S50000x128, .f32⟩
  | 119 => ⟨S50000x128, .f32⟩
  | 120 => ⟨S50000x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S800000x1, .f32⟩
  | 8 => ⟨S800000, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S50000x128, .f32⟩
  | 27 => ⟨S50000x128, .f32⟩
  | 28 => ⟨S_, .f32⟩
  | 29 => ⟨S50000, .f32⟩
  | 30 => ⟨S50000x1, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S_, .f32⟩
  | 38 => ⟨S50000x128, .f32⟩
  | 39 => ⟨S50000x128, .i1⟩
  | 40 => ⟨S50000x128, .f32⟩
  | 41 => ⟨S50000x128, .f32⟩
  | 42 => ⟨S50000x128, .f32⟩
  | 43 => ⟨S_, .f32⟩
  | 44 => ⟨S50000x128, .f32⟩
  | 45 => ⟨S50000x128, .i1⟩
  | 46 => ⟨S50000x128, .f32⟩
  | 47 => ⟨S50000x128, .f32⟩
  | 48 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_v0 : Ref sig .tc := ⟨.hbm, 55, rfl⟩
abbrev main_call0_cst : Ref sig .tc := ⟨.hbm, 56, rfl⟩
abbrev main_call0_v1 : Ref sig .tc := ⟨.hbm, 57, rfl⟩
abbrev main_call0_v2 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_6 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call2_v0 : Ref sig .tc := ⟨.hbm, 105, rfl⟩
abbrev main_call2_cst : Ref sig .tc := ⟨.hbm, 106, rfl⟩
abbrev main_call2_v1 : Ref sig .tc := ⟨.hbm, 107, rfl⟩
abbrev main_call2_v2 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_13 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_14 : Ref sig .tc := ⟨.hbm, 122, rfl⟩
abbrev main_v84 : Ref sig .tc := ⟨.hbm, 123, rfl⟩
abbrev main_v85 : Ref sig .tc := ⟨.hbm, 124, rfl⟩
abbrev main_c_15 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_16 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_cst_18 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_19 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call4_v0 : Ref sig .tc := ⟨.hbm, 155, rfl⟩
abbrev main_call4_cst : Ref sig .tc := ⟨.hbm, 156, rfl⟩
abbrev main_call4_v1 : Ref sig .tc := ⟨.hbm, 157, rfl⟩
abbrev main_call4_v2 : Ref sig .tc := ⟨.hbm, 158, rfl⟩
abbrev main_v111 : Ref sig .tc := ⟨.hbm, 159, rfl⟩
abbrev main_cst_20 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_21 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_22 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S800000x128_S800000x1_0_0 : S800000x128.Slices ![0, 0] S800000x1
  shapeCasts_S800000x1_S800000 : S800000x1.ShapeCasts S800000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.SageRun.lean ====
/-
  The idealized kernel's run with its result named: every weakly fair execution of the program terminates
  without a fault, leaves the argument arrays as they were, and leaves the result array at what the last
  region's write-backs fold to (the contents the run's last boundary holds at the result's buffer).
-/
import proofs.«128962_j16595753632514_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four regions and the host stretches between them, posted with the result buffer's final contents. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Hand

end
-- ==== Proof.SageSpec.lean ====
/-
  The mathematics both programs compute, stated once over the extended reals and over plain coordinates.

  One node's new feature row is a function of that node's aggregated-neighbour row `a`, its own row `x`, two
  128 × 128 weight matrices, a bias row and the activation slope `s`:
    lin  c = (∑ k, a k · Wl k c) + bl c + ∑ k, x k · Wr k c            the two linear maps and the bias
    unit c = lin c / max (√ (∑ c', lin c' · lin c')) ε                  the row scaled to Euclidean length one
    row1 c = prelu s (unit c),   row2 c = prelu s (prelu s (unit c))    the leaky activation, once or twice
  and the skip connection's row is `(∑ k, x k · Ws k c) + bs c`.
  A whole layer applies the row function to every row of its two [50000, 128] operands.
-/
import Idealize.ShloMosaic.PureOps.Ideal
import Idealize.ShloMosaic.PureOps.Ideal.Laws
import Idealize.ShloMosaic.Lib.ValueIdx

noncomputable section

namespace Cert.Sage

open Idealize.ShloMosaic

/-- The two linear maps of one row, with the bias between them (the order the sums are added in is kept). -/
def lin (a x : Fin 128 → EReal) (Wl Wr : Fin 128 → Fin 128 → EReal) (bl : Fin 128 → EReal) (c : Fin 128) : EReal :=
  (∑ k : Fin 128, a k * Wl k c) + bl c + ∑ k : Fin 128, x k * Wr k c

/-- The Euclidean length of a row, bounded below by the small constant both programs share. -/
def len (o : Fin 128 → EReal) : EReal :=
  max (Ideal.sqrt (∑ c : Fin 128, o c * o c)) (Ideal.ofBits .f32 0x2B8CBCCC#32)

/-- A row divided by its length. -/
def unit (o : Fin 128 → EReal) (c : Fin 128) : EReal := Ideal.div (o c) (len o)

/-- The leaky activation with slope `s`: `y` where `y ≥ 0`, `s · y` elsewhere. -/
def prelu (s y : EReal) : EReal :=
  Scalar.select (Ideal.cmp .oge y (Ideal.ofBits .f32 0x00000000#32)) y (s * y)

/-- One row of a layer that activates once. -/
def row1 (a x : Fin 128 → EReal) (Wl Wr : Fin 128 → Fin 128 → EReal) (bl : Fin 128 → EReal) (s : EReal) (c : Fin 128) : EReal :=
  prelu s (unit (lin a x Wl Wr bl) c)

/-- One row of the last layer, which activates twice. -/
def row2 (a x : Fin 128 → EReal) (Wl Wr : Fin 128 → Fin 128 → EReal) (bl : Fin 128 → EReal) (s : EReal) (c : Fin 128) : EReal :=
  prelu s (prelu s (unit (lin a x Wl Wr bl) c))

/-- One row of the skip connection. -/
def skipRow (x : Fin 128 → EReal) (Ws : Fin 128 → Fin 128 → EReal) (bs : Fin 128 → EReal) (c : Fin 128) : EReal :=
  (∑ k : Fin 128, x k * Ws k c) + bs c

/-- A [50000, 128] array, a [128, 128] matrix. -/
abbrev SN : Shape := ⟨2, ![50000, 128]⟩
abbrev SW : Shape := ⟨2, ![128, 128]⟩

/-- Row `r` of an array. -/
def rowOf (A : SN.Idx → EReal) (r : Fin 50000) : Fin 128 → EReal := fun k => A (ValueIdx.ix2 r k)
/-- A matrix by its two coordinates. -/
def mat (W : SW.Idx → EReal) : Fin 128 → Fin 128 → EReal := fun k c => W (ValueIdx.ix2 k c)

/-- A layer that activates once, on whole arrays. -/
def layer1 (A X : SN.Idx → EReal) (Wl Wr : SW.Idx → EReal) (bl : Fin 128 → EReal) (s : EReal) : SN.Idx → EReal :=
  fun i => row1 (rowOf A (i 0)) (rowOf X (i 0)) (mat Wl) (mat Wr) bl s (i 1)

/-- The last layer, which activates twice, on whole arrays. -/
def layer2 (A X : SN.Idx → EReal) (Wl Wr : SW.Idx → EReal) (bl : Fin 128 → EReal) (s : EReal) : SN.Idx → EReal :=
  fun i => row2 (rowOf A (i 0)) (rowOf X (i 0)) (mat Wl) (mat Wr) bl s (i 1)

/-- The skip connection on a whole array. -/
def skip (X : SN.Idx → EReal) (Ws : SW.Idx → EReal) (bs : Fin 128 → EReal) : SN.Idx → EReal :=
  fun i => skipRow (rowOf X (i 0)) (mat Ws) bs (i 1)

end Cert.Sage

end
-- ==== Proof.SagePayload.lean ====
/-
  What each kernel body stores, read at one element of its [5000, 128] block, over the extended reals.

  Every body computes its block row by row: row `p` of the stored block is the row function of the
  specification applied to row `p` of the two loaded [5000, 128] blocks, the two weight matrices, the bias
  row and the slope. The bf16 conversions before the matrix products are the identity on extended reals, a
  matrix product into a zero accumulator is the plain sum over the contracted coordinate, the lane reduction
  of the squares is the sum over the row, and the two broadcasts (the bias over the rows, the row length over
  the lanes) read their operand at the row or at the lane.
-/
import proofs.«128962_j16595753632514_1_alg».proof.Proof.Gen.KernelIdeal.Skeleton
import proofs.«128962_j16595753632514_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Facts₀ Cert.KernelIdeal.Facts
open Idealize.ShloMosaic Idealize.ShloMosaic.ValueIdx

/-! ## The body's three stages, as vector terms -/

/-- Two matrix products and the bias row between them, on a block. -/
def linV (G X : FVec Ideal S5000x128 .f32) (Wl Wr : FVec Ideal S128x128 .f32) (bl : FVec Ideal S1x128 .f32) : FVec Ideal S5000x128 .f32 :=
  addf (addf (matmul dot_S5000x128_S128x128_S5000x128_1_0_0_1_n_n none (truncf .bf16 G bitsLt_bf16_f32) (truncf .bf16 Wl bitsLt_bf16_f32) (constant S5000x128 .f32 0x00000000#32))
      (broadcastTo S5000x128 (shapeCast S1x128 bl shapeCasts_S1x128_S1x128) broadcasts_S1x128_S5000x128))
    (matmul dot_S5000x128_S128x128_S5000x128_1_0_0_1_n_n none (truncf .bf16 X bitsLt_bf16_f32) (truncf .bf16 Wr bitsLt_bf16_f32) (constant S5000x128 .f32 0x00000000#32))

/-- Every row divided by its Euclidean length (bounded below). -/
def unitV (O : FVec Ideal S5000x128 .f32) : FVec Ideal S5000x128 .f32 :=
  divf O (broadcastTo S5000x128
    (maximumf (sqrt (shapeCast S5000x1 (multiReduction .add [1] S5000 (mulf O O) 0x00000000#32 reduces_S5000x128_S5000 (.inl rfl) rfl) shapeCasts_S5000_S5000x1))
      (broadcast S5000x1 (Scalar.ofBits .f32 0x2B8CBCCC#32)))
    broadcasts_S5000x1_S5000x128)

/-- The leaky activation on a block. -/
def preluV (s : Ideal .f32) (Y : FVec Ideal S5000x128 .f32) : FVec Ideal S5000x128 .f32 :=
  select (cmpf .oge Y (broadcast S5000x128 (Scalar.ofBits .f32 0x00000000#32))) Y (mulf (broadcast S5000x128 s) Y)

/-- The slope, read out of its [1, 1] block. -/
def slopeV (a : FVec Ideal S1x1 .f32) : Ideal .f32 :=
  extractAt ![0, 0] (shapeCast S1x1 a shapeCasts_S1x1_S1x1) inpos_S1x1_p0_0

/-- The skip connection's body: one matrix product and the bias row. -/
def skipV (X : FVec Ideal S5000x128 .f32) (Ws : FVec Ideal S128x128 .f32) (bs : FVec Ideal S1x128 .f32) : FVec Ideal S5000x128 .f32 :=
  addf (matmul dot_S5000x128_S128x128_S5000x128_1_0_0_1_n_n none (truncf .bf16 X bitsLt_bf16_f32) (truncf .bf16 Ws bitsLt_bf16_f32) (constant S5000x128 .f32 0x00000000#32))
    (broadcastTo S5000x128 (shapeCast S1x128 bs shapeCasts_S1x128_S1x128) broadcasts_S1x128_S5000x128)

/-! ## The four stored values are these stages composed -/

theorem pay0_eq (x0 : Vec Ideal S5000x128 .f32) (x1 : Vec Ideal S128x128 .f32) (x2 : Vec Ideal S1x128 .f32) :
    Gen.k0_pay1 (F := Ideal) x0 x1 x2 = skipV x0 x1 x2 := rfl

theorem pay1_eq (g x : Vec Ideal S5000x128 .f32) (wl wr : Vec Ideal S128x128 .f32) (bl : Vec Ideal S1x128 .f32) (a : Vec Ideal S1x1 .f32) :
    Gen.k1_pay1 (F := Ideal) g x wl wr bl a
      = preluV (slopeV a) (unitV (linV (shapeCast S5000x128 g shapeCasts_S5000x128_S5000x128) x wl wr bl)) := rfl

theorem pay2_eq (g x : Vec Ideal S5000x128 .f32) (wl wr : Vec Ideal S128x128 .f32) (bl : Vec Ideal S1x128 .f32) (a : Vec Ideal S1x1 .f32) :
    Gen.k2_pay1 (F := Ideal) g x wl wr bl a
      = preluV (slopeV a) (unitV (linV (shapeCast S5000x128 g shapeCasts_S5000x128_S5000x128)
          (shapeCast S5000x128 x shapeCasts_S5000x128_S5000x128) wl wr bl)) := rfl

theorem pay3_eq (g x : Vec Ideal S5000x128 .f32) (wl wr : Vec Ideal S128x128 .f32) (bl : Vec Ideal S1x128 .f32) (a : Vec Ideal S1x1 .f32) :
    Gen.k3_pay1 (F := Ideal) g x wl wr bl a
      = preluV (slopeV a) (preluV (slopeV a) (unitV (linV (shapeCast S5000x128 g shapeCasts_S5000x128_S5000x128)
          (shapeCast S5000x128 x shapeCasts_S5000x128_S5000x128) wl wr bl))) := rfl

/-! ## The layout steps read at an element -/

section Layout
variable {α : Type}

/-- A [5000, 1] column broadcast over the lanes reads, at `(p, q)`, the column at row `p`. -/
theorem bcast_col_apply (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

/-- A [5000] vector viewed as a [5000, 1] column reads, at `(p, 0)`, the vector at `p`. -/
theorem cast_col_apply (v : S5000.Idx → α) (h : S5000.ShapeCasts S5000x1) (p : Fin 5000) :
    shapeCast S5000x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Layout

/-! ## The arithmetic steps read at an element -/

theorem lhs_coord0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_coord1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_coord0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_coord1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into the zero accumulator, at `(p, q)`: the sum over the contracted coordinate of row `p`
    of the left operand times column `q` of the right. -/
theorem matmul_at (L : FVec Ideal S5000x128 .bf16) (R : FVec Ideal S128x128 .bf16) (p : Fin 5000) (q : Fin 128) :
    matmul dot_S5000x128_S128x128_S5000x128_1_0_0_1_n_n none L R (constant S5000x128 .f32 0x00000000#32) (ix2 p q)
      = ∑ k : Fin 128, L (ix2 p k) * R (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-- The lane reduction of a block, at row `p`: the sum over the row. -/
theorem rowsum_at (v : FVec Ideal S5000x128 .f32) (hacc : (0x00000000#32 : BitVec 32) = 0x00000000#32) (p : Fin 5000) :
    multiReduction .add [1] S5000 v 0x00000000#32 reduces_S5000x128_S5000 (.inl rfl) hacc (ix1 p) = ∑ k : Fin 128, v (ix2 p k) := by
  refine (Ideal.multiReduction_add_single v 0x00000000#32 reduces_S5000x128_S5000 (.inl rfl) hacc (ix1 p)).trans ?_
  refine Finset.sum_congr rfl fun k _ => congrArg v (funext fun a => Fin.ext (by
    match a with
    | ⟨0, _⟩ => rfl
    | ⟨1, _⟩ => rfl))

/-- The linear stage at `(p, q)` is the specification's, of row `p` of the two blocks. -/
theorem linV_at (G X : FVec Ideal S5000x128 .f32) (Wl Wr : FVec Ideal S128x128 .f32) (bl : FVec Ideal S1x128 .f32) (p : Fin 5000) (q : Fin 128) :
    linV G X Wl Wr bl (ix2 p q)
      = Cert.Sage.lin (fun k => G (ix2 p k)) (fun k => X (ix2 p k)) (fun k c => Wl (ix2 k c)) (fun k c => Wr (ix2 k c))
          (fun c => bl (ix2 (0 : Fin 1) c)) q := by
  unfold linV Cert.Sage.lin
  simp only [ValueIdx.addf_apply]
  rw [matmul_at, matmul_at, ValueIdx.broadcastTo_1b_ab_apply, shapeCast_self]
  rfl

/-- The skip body at `(p, q)`. -/
theorem skipV_at (X : FVec Ideal S5000x128 .f32) (Ws : FVec Ideal S128x128 .f32) (bs : FVec Ideal S1x128 .f32) (p : Fin 5000) (q : Fin 128) :
    skipV X Ws bs (ix2 p q)
      = Cert.Sage.skipRow (fun k => X (ix2 p k)) (fun k c => Ws (ix2 k c)) (fun c => bs (ix2 (0 : Fin 1) c)) q := by
  unfold skipV Cert.Sage.skipRow
  simp only [ValueIdx.addf_apply]
  rw [matmul_at, ValueIdx.broadcastTo_1b_ab_apply, shapeCast_self]
  rfl

/-- The scaling stage at `(p, q)` is the specification's, of row `p`. -/
theorem unitV_at (O : FVec Ideal S5000x128 .f32) (p : Fin 5000) (q : Fin 128) :
    unitV O (ix2 p q) = Cert.Sage.unit (fun c => O (ix2 p c)) q := by
  unfold unitV Cert.Sage.unit Cert.Sage.len
  simp only [ValueIdx.divf_apply]
  rw [bcast_col_apply]
  simp only [ValueIdx.maximumf_apply]
  show Ideal.div _ (max (Ideal.sqrt (shapeCast S5000x1 _ _ (ix2 p (0 : Fin 1)))) _) = _
  rw [cast_col_apply, rowsum_at]
  rfl

/-- The activation stage at an element. -/
theorem preluV_at (s : Ideal .f32) (Y : FVec Ideal S5000x128 .f32) (i : S5000x128.Idx) :
    preluV s Y i = Cert.Sage.prelu s (Y i) := rfl

/-- The slope is the [1, 1] block's one element. -/
theorem slopeV_eq (a : FVec Ideal S1x1 .f32) : slopeV a = a (ix2 (0 : Fin 1) (0 : Fin 1)) := by
  unfold slopeV
  rw [shapeCast_self]
  unfold extractAt
  exact congrArg a (funext fun ax => Fin.ext (by
    match ax with
    | ⟨0, _⟩ => rfl
    | ⟨1, _⟩ => rfl))

/-! ## The four stored values at an element -/

theorem pay0_at (x : Vec Ideal S5000x128 .f32) (ws : Vec Ideal S128x128 .f32) (bs : Vec Ideal S1x128 .f32) (p : Fin 5000) (q : Fin 128) :
    Gen.k0_pay1 (F := Ideal) x ws bs (ix2 p q)
      = Cert.Sage.skipRow (fun k => x (ix2 p k)) (fun k c => ws (ix2 k c)) (fun c => bs (ix2 (0 : Fin 1) c)) q :=
  (congrFun (pay0_eq x ws bs) (ix2 p q)).trans (skipV_at x ws bs p q)

theorem pay1_at (g x : Vec Ideal S5000x128 .f32) (wl wr : Vec Ideal S128x128 .f32) (bl : Vec Ideal S1x128 .f32) (a : Vec Ideal S1x1 .f32) (p : Fin 5000) (q : Fin 128) :
    Gen.k1_pay1 (F := Ideal) g x wl wr bl a (ix2 p q)
      = Cert.Sage.row1 (fun k => g (ix2 p k)) (fun k => x (ix2 p k)) (fun k c => wl (ix2 k c)) (fun k c => wr (ix2 k c))
          (fun c => bl (ix2 (0 : Fin 1) c)) (a (ix2 (0 : Fin 1) (0 : Fin 1))) q := by
  rw [pay1_eq, preluV_at, unitV_at, slopeV_eq, shapeCast_self]
  simp only [linV_at]
  rfl

theorem pay2_at (g x : Vec Ideal S5000x128 .f32) (wl wr : Vec Ideal S128x128 .f32) (bl : Vec Ideal S1x128 .f32) (a : Vec Ideal S1x1 .f32) (p : Fin 5000) (q : Fin 128) :
    Gen.k2_pay1 (F := Ideal) g x wl wr bl a (ix2 p q)
      = Cert.Sage.row1 (fun k => g (ix2 p k)) (fun k => x (ix2 p k)) (fun k c => wl (ix2 k c)) (fun k c => wr (ix2 k c))
          (fun c => bl (ix2 (0 : Fin 1) c)) (a (ix2 (0 : Fin 1) (0 : Fin 1))) q := by
  rw [pay2_eq, preluV_at, unitV_at, slopeV_eq, shapeCast_self, shapeCast_self]
  simp only [linV_at]
  rfl

theorem pay3_at (g x : Vec Ideal S5000x128 .f32) (wl wr : Vec Ideal S128x128 .f32) (bl : Vec Ideal S1x128 .f32) (a : Vec Ideal S1x1 .f32) (p : Fin 5000) (q : Fin 128) :
    Gen.k3_pay1 (F := Ideal) g x wl wr bl a (ix2 p q)
      = Cert.Sage.row2 (fun k => g (ix2 p k)) (fun k => x (ix2 p k)) (fun k c => wl (ix2 k c)) (fun k c => wr (ix2 k c))
          (fun c => bl (ix2 (0 : Fin 1) c)) (a (ix2 (0 : Fin 1) (0 : Fin 1))) q := by
  rw [pay3_eq, preluV_at, preluV_at, unitV_at, slopeV_eq, shapeCast_self, shapeCast_self]
  simp only [linV_at]
  rfl

end Cert.KernelIdeal.Pay

end
-- ==== Proof.SageBlocks.lean ====
/-
  Each region's output array after the region, as one function of the arrays the region is entered with.

  A region runs its body at ten grid points; at point `t` the two row-blocked operands and the output are at
  rows `5000 t … 5000 t + 4999` of their arrays, the weight matrices, the bias row and the slope are whole. What
  the body stores in row `p` of its block is the specification's row function of rows `5000 t + p` of the operand
  arrays, so the block written back at `t` is block `t` of the whole-array layer function, and the ten blocks tile
  the [50000, 128] output.
-/
import proofs.«128962_j16595753632514_1_alg».proof.Proof.Gen.KernelIdeal.Frame
import proofs.«128962_j16595753632514_1_alg».proof.Proof.SagePayload
import Idealize.ShloMosaic.Lib.Pipeline.Value
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! # Region 0 -/

/-- The printed index maps of region 0, decided over the grid: the row-blocked windows are at block `(t, 0)`, the others at `(0, 0)`. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What region 0's output array holds after the region, as one function of the arrays the region is entered with. -/
def G0 (c : Dev nD) : S50000x128.Idx → EReal :=
  Cert.Sage.skip (V c main_arg0 : S50000x128.Idx → EReal) (V c main_arg11 : S128x128.Idx → EReal) (fun q => (V c main_v11 : S1x128.Idx → EReal) (ix2 (0 : Fin 1) q))

/-- Region 0, window 0: row `p` of the block at point `t` is row `5000 t + p` of the array. -/
theorem read0_0 (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e00, e01, e10, e11, e20, e21, eo0, eo1⟩ := idx0 t
  unfold iblk0
  rw [View.read_apply]
  refine congrArg (V c main_arg0 : S50000x128.Idx → EReal) (funext fun a => Fin.ext ?_)
  match a with
  | ⟨0, _⟩ => show win0_0.index t (0 : Fin 2) * 5000 + 1 * p.val = r.val; rw [e00, hr]; omega
  | ⟨1, _⟩ => show win0_0.index t (1 : Fin 2) * 128 + 1 * k.val = k.val; rw [e01]; omega

/-- Region 0, window 1: the block at every point is the whole array. -/
theorem read0_1 (c : Dev nD) (t : Fin cfg0.N) (a0 : Fin 128) (a1 : Fin 128) :
    (iblk0 V c 1 t : Vec Ideal S128x128 .f32) (ix2 a0 a1) = (V c main_arg11 : S128x128.Idx → EReal) (ix2 a0 a1) := by
  obtain ⟨e00, e01, e10, e11, e20, e21, eo0, eo1⟩ := idx0 t
  unfold iblk0
  rw [View.read_apply]
  refine congrArg (V c main_arg11 : S128x128.Idx → EReal) (funext fun a => Fin.ext ?_)
  match a with
  | ⟨0, _⟩ => show win0_1.index t (0 : Fin 2) * 128 + 1 * a0.val = a0.val; rw [e10]; omega
  | ⟨1, _⟩ => show win0_1.index t (1 : Fin 2) * 128 + 1 * a1.val = a1.val; rw [e11]; omega

/-- Region 0, window 2: the block at every point is the whole array. -/
theorem read0_2 (c : Dev nD) (t : Fin cfg0.N) (a0 : Fin 1) (a1 : Fin 128) :
    (iblk0 V c 2 t : Vec Ideal S1x128 .f32) (ix2 a0 a1) = (V c main_v11 : S1x128.Idx → EReal) (ix2 a0 a1) := by
  obtain ⟨e00, e01, e10, e11, e20, e21, eo0, eo1⟩ := idx0 t
  unfold iblk0
  rw [View.read_apply]
  refine congrArg (V c main_v11 : S1x128.Idx → EReal) (funext fun a => Fin.ext ?_)
  match a with
  | ⟨0, _⟩ => show win0_2.index t (0 : Fin 2) * 1 + 1 * a0.val = a0.val; rw [e20]; omega
  | ⟨1, _⟩ => show win0_2.index t (1 : Fin 2) * 128 + 1 * a1.val = a1.val; rw [e21]; omega

/-- Region 0: what the body stores at `(p, q)` of its block at point `t` is `G0` at row `5000 t + p`. -/
theorem stored0 (c : Dev nD) (t : Fin cfg0.N) (p : Fin 5000) (q : Fin 128) (r : Fin 50000) (hr : r.val = t.val * 5000 + p.val) :
    k0_pay1 (F := Ideal) (iblk0 V c 0 t) (iblk0 V c 1 t) (iblk0 V c 2 t) (ix2 p q) = G0 V c (ix2 r q) := by
  refine (Cert.KernelIdeal.Pay.pay0_at (iblk0 V c 0 t) (iblk0 V c 1 t) (iblk0 V c 2 t) p q).trans ?_
  unfold G0 Cert.Sage.skip Cert.Sage.rowOf Cert.Sage.mat
  have h0 : (fun k : Fin 128 => (iblk0 V c 0 t : Vec Ideal S5000x128 .f32) (ix2 p k)) = fun k => (V c main_arg0 : S50000x128.Idx → EReal) (ix2 r k) :=
    funext fun k => read0_0 V c t p k r hr
  have h1 : (fun (k c' : Fin 128) => (iblk0 V c 1 t : Vec Ideal S128x128 .f32) (ix2 k c')) = fun k c' => (V c main_arg11 : S128x128.Idx → EReal) (ix2 k c') :=
    funext fun k => funext fun c' => read0_1 V c t k c'
  have h2 : (fun c' : Fin 128 => (iblk0 V c 2 t : Vec Ideal S1x128 .f32) (ix2 (0 : Fin 1) c')) = fun c' => (V c main_v11 : S1x128.Idx → EReal) (ix2 (0 : Fin 1) c') :=
    funext fun c' => read0_2 V c t 0 c'
  rw [h0, h1, h2]

/-- WHAT POINT `t` WRITES BACK is block `t` of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, eo0, eo1⟩ := idx0 t
  have hN : cfg0.N = 10 := N_0
  funext j
  have hj0 : (j 0).val < 5000 := (j 0).isLt
  have hj1 : (j 1).val < 128 := (j 1).isLt
  have ht : t.val < 10 := hN ▸ t.isLt
  have hjj : j = ix2 (⟨(j 0).val, hj0⟩ : Fin 5000) (⟨(j 1).val, hj1⟩ : Fin 128) := funext fun a => by
    match a with
    | ⟨0, _⟩ => rfl
    | ⟨1, _⟩ => rfl
  rw [View.read_apply]
  refine ((congrArg _ hjj).trans (stored0 V c t ⟨(j 0).val, hj0⟩ ⟨(j 1).val, hj1⟩ ⟨t.val * 5000 + (j 0).val, by omega⟩ rfl)).trans ?_
  refine congrArg (G0 V c) (funext fun a => Fin.ext ?_)
  match a with
  | ⟨0, _⟩ => show t.val * 5000 + (j 0).val = win0_3.index t (0 : Fin 2) * 5000 + 1 * (j 0).val; rw [eo0]; omega
  | ⟨1, _⟩ => show (j 1).val = win0_3.index t (1 : Fin 2) * 128 + 1 * (j 1).val; rw [eo1]; omega

/-- THE ARRAY after region 0: its ten row blocks tile it, so it holds `G0` everywhere. -/
theorem final0 (c : Dev nD) : (dat0 V c).arrAt 3 cfg0.N = G0 V c :=
  (dat0 V c).arrAt_eq_of_cover 3 (G0 V c) (fun t _ => flushed0_eq V c t) fun i => by
    have hN : cfg0.N = 10 := N_0
    have hi0 : (i 0).val < 50000 := (i 0).isLt
    have hi1 : (i 1).val < 128 := (i 1).isLt
    let t : Fin cfg0.N := ⟨(i 0).val / 5000, by rw [hN]; omega⟩
    obtain ⟨e00, e01, e10, e11, e20, e21, eo0, eo1⟩ := idx0 t
    refine ⟨t, flush0_3 t, ?_⟩
    show i ∈ ((View.whole main_v12).slice (win0_3.rect t)).set
    rw [View.set_slice_whole, Rect.mem_set_unit]
    intro a
    match a with
    | ⟨0, _⟩ =>
      show win0_3.index t (0 : Fin 2) * 5000 ≤ (i 0).val ∧ (i 0).val < win0_3.index t (0 : Fin 2) * 5000 + 5000
      rw [eo0]; show (i 0).val / 5000 * 5000 ≤ (i 0).val ∧ (i 0).val < (i 0).val / 5000 * 5000 + 5000; omega
    | ⟨1, _⟩ =>
      show win0_3.index t (1 : Fin 2) * 128 ≤ (i 1).val ∧ (i 1).val < win0_3.index t (1 : Fin 2) * 128 + 128
      rw [eo1]; omega

/-! # Region 1 -/

/-- The printed index maps of region 1, decided over the grid: the row-blocked windows are at block `(t, 0)`, the others at `(0, 0)`. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- What region 1's output array holds after the region, as one function of the arrays the region is entered with. -/
def G1 (c : Dev nD) : S50000x128.Idx → EReal :=
  Cert.Sage.layer1 (V c main_v24 : S50000x128.Idx → EReal) (V c main_arg0 : S50000x128.Idx → EReal) (V c main_arg2 : S128x128.Idx → EReal) (V c main_arg4 : S128x128.Idx → EReal) (fun q => (V c main_v25 : S1x128.Idx → EReal) (ix2 (0 : Fin 1) q)) ((V c main_v26 : S1x1.Idx → EReal) (ix2 (0 : Fin 1) (0 : Fin 1)))

/-- Region 1, window 0: row `p` of the block at point `t` is row `5000 t + p` of the array. -/
theorem read1_0 (c : Dev nD) (t : Fin cfg1.N) (p : Fin 5000) (k : Fin 128) (r : Fin 50000) (hr : r.val = t.val * 5000 + p.val) :
    (iblk1 V c 0 t : Vec Ideal S5000x128 .f32) (ix2 p k) = (V c main_v24 : S50000x128.Idx → EReal) (ix2 r k) := by
  obtain ⟨e00, e01, e10, e11, e20, e21, e30, e31, e40, e41, e50, e51, eo0, eo1⟩ := idx1 t
  unfold iblk1
  rw [View.read_apply]
  refine congrArg (V c main_v24 : S50000x128.Idx → EReal) (funext fun a => Fin.ext ?_)
  match a with
  | ⟨0, _⟩ => show win1_0.index t (0 : Fin 2) * 5000 + 1 * p.val = r.val; rw [e00, hr]; omega
  | ⟨1, _⟩ => show win1_0.index t (1 : Fin 2) * 128 + 1 * k.val = k.val; rw [e01]; omega

/-- Region 1, window 1: row `p` of the block at point `t` is row `5000 t + p` of the array. -/
theorem read1_1 (c : Dev nD) (t : Fin cfg1.N) (p : Fin 5000) (k : Fin 128) (r : Fin 50000) (hr : r.val = t.val * 5000 + p.val) :
    (iblk1 V c 1 t : Vec Ideal S5000x128 .f32) (ix2 p k) = (V c main_arg0 : S50000x128.Idx → EReal) (ix2 r k) := by
  obtain ⟨e00, e01, e10, e11, e20, e21, e30, e31, e40, e41, e50, e51, eo0, eo1⟩ := idx1 t
  unfold iblk1
  rw [View.read_apply]
  refine congrArg (V c main_arg0 : S50000x128.Idx → EReal) (funext fun a => Fin.ext ?_)
  match a with
  | ⟨0, _⟩ => show win1_1.index t (0 : Fin 2) * 5000 + 1 * p.val = r.val; rw [e10, hr]; omega
  | ⟨1, _⟩ => show win1_1.index t (1 : Fin 2) * 128 + 1 * k.val = k.val; rw [e11]; omega

/-- Region 1, window 2: the block at every point is the whole array. -/
theorem read1_2 (c : Dev nD) (t : Fin cfg1.N) (a0 : Fin 128) (a1 : Fin 128) :
    (iblk1 V c 2 t : Vec Ideal S128x128 .f32) (ix2 a0 a1) = (V c main_arg2 : S128x128.Idx → EReal) (ix2 a0 a1) := by
  obtain ⟨e00, e01, e10, e11, e20, e21, e30, e31, e40, e41, e50, e51, eo0, eo1⟩ := idx1 t
  unfold iblk1
  rw [View.read_apply]
  refine congrArg (V c main_arg2 : S128x128.Idx → EReal) (funext fun a => Fin.ext ?_)
  match a with
  | ⟨0, _⟩ => show win1_2.index t (0 : Fin 2) * 128 + 1 * a0.val = a0.val; rw [e20]; omega
  | ⟨1, _⟩ => show win1_2.index t (1 : Fin 2) * 128 + 1 * a1.val = a1.val; rw [e21]; omega

/-- Region 1, window 3: the block at every point is the whole array. -/
theorem read1_3 (c : Dev nD) (t : Fin cfg1.N) (a0 : Fin 1) (a1 : Fin 128) :
    (iblk1 V c 3 t : Vec Ideal S1x128 .f32) (ix2 a0 a1) = (V c main_v25 : S1x128.Idx → EReal) (ix2 a0 a1) := by
  obtain ⟨e00, e01, e10, e11, e20, e21, e30, e31, e40, e41, e50, e51, eo0, eo1⟩ := idx1 t
  unfold iblk1
  rw [View.read_apply]
  refine congrArg (V c main_v25 : S1x128.Idx → EReal) (funext fun a => Fin.ext ?_)
  match a with
  | ⟨0, _⟩ => show win1_3.index t (0 : Fin 2) * 1 + 1 * a0.val = a0.val; rw [e30]; omega
  | ⟨1, _⟩ => show win1_3.index t (1 : Fin 2) * 128 + 1 * a1.val = a1.val; rw [e31]; omega

/-- Region 1, window 4: the block at every point is the whole array. -/
theorem read1_4 (c : Dev nD) (t : Fin cfg1.N) (a0 : Fin 128) (a1 : Fin 128) :
    (iblk1 V c 4 t : Vec Ideal S128x128 .f32) (ix2 a0 a1) = (V c main_arg4 : S128x128.Idx → EReal) (ix2 a0 a1) := by
  obtain ⟨e00, e01, e10, e11, e20, e21, e30, e31, e40, e41, e50, e51, eo0, eo1⟩ := idx1 t
  unfold iblk1
  rw [View.read_apply]
  refine congrArg (V c main_arg4 : S128x128.Idx → EReal) (funext fun a => Fin.ext ?_)
  match a with
  | ⟨0, _⟩ => show win1_4.index t (0 : Fin 2) * 128 + 1 * a0.val = a0.val; rw [e40]; omega
  | ⟨1, _⟩ => show win1_4.index t (1 : Fin 2) * 128 + 1 * a1.val = a1.val; rw [e41]; omega

/-- Region 1, window 5: the block at every point is the whole array. -/
theorem read1_5 (c : Dev nD) (t : Fin cfg1.N) (a0 : Fin 1) (a1 : Fin 1) :
    (iblk1 V c 5 t : Vec Ideal S1x1 .f32) (ix2 a0 a1) = (V c main_v26 : S1x1.Idx → EReal) (ix2 a0 a1) := by
  obtain ⟨e00, e01, e10, e11, e20, e21, e30, e31, e40, e41, e50, e51, eo0, eo1⟩ := idx1 t
  unfold iblk1
  rw [View.read_apply]
  refine congrArg (V c main_v26 : S1x1.Idx → EReal) (funext fun a => Fin.ext ?_)
  match a with
  | ⟨0, _⟩ => show win1_5.index t (0 : Fin 2) * 1 + 1 * a0.val = a0.val; rw [e50]; omega
  | ⟨1, _⟩ => show win1_5.index t (1 : Fin 2) * 1 + 1 * a1.val = a1.val; rw [e51]; omega

/-- Region 1: what the body stores at `(p, q)` of its block at point `t` is `G1` at row `5000 t + p`. -/
theorem stored1 (c : Dev nD) (t : Fin cfg1.N) (p : Fin 5000) (q : Fin 128) (r : Fin 50000) (hr : r.val = t.val * 5000 + p.val) :
    k1_pay1 (F := Ideal) (iblk1 V c 0 t) (iblk1 V c 1 t) (iblk1 V c 2 t) (iblk1 V c 4 t) (iblk1 V c 3 t) (iblk1 V c 5 t) (ix2 p q) = G1 V c (ix2 r q) := by
  refine (Cert.KernelIdeal.Pay.pay1_at (iblk1 V c 0 t) (iblk1 V c 1 t) (iblk1 V c 2 t) (iblk1 V c 4 t) (iblk1 V c 3 t) (iblk1 V c 5 t) p q).trans ?_
  unfold G1 Cert.Sage.layer1 Cert.Sage.rowOf Cert.Sage.mat
  have h0 : (fun k : Fin 128 => (iblk1 V c 0 t : Vec Ideal S5000x128 .f32) (ix2 p k)) = fun k => (V c main_v24 : S50000x128.Idx → EReal) (ix2 r k) :=
    funext fun k => read1_0 V c t p k r hr
  have h1 : (fun k : Fin 128 => (iblk1 V c 1 t : Vec Ideal S5000x128 .f32) (ix2 p k)) = fun k => (V c main_arg0 : S50000x128.Idx → EReal) (ix2 r k) :=
    funext fun k => read1_1 V c t p k r hr
  have h2 : (fun (k c' : Fin 128) => (iblk1 V c 2 t : Vec Ideal S128x128 .f32) (ix2 k c')) = fun k c' => (V c main_arg2 : S128x128.Idx → EReal) (ix2 k c') :=
    funext fun k => funext fun c' => read1_2 V c t k c'
  have h4 : (fun (k c' : Fin 128) => (iblk1 V c 4 t : Vec Ideal S128x128 .f32) (ix2 k c')) = fun k c' => (V c main_arg4 : S128x128.Idx → EReal) (ix2 k c') :=
    funext fun k => funext fun c' => read1_4 V c t k c'
  have h3 : (fun c' : Fin 128 => (iblk1 V c 3 t : Vec Ideal S1x128 .f32) (ix2 (0 : Fin 1) c')) = fun c' => (V c main_v25 : S1x128.Idx → EReal) (ix2 (0 : Fin 1) c') :=
    funext fun c' => read1_3 V c t 0 c'
  have h5 : (iblk1 V c 5 t : Vec Ideal S1x1 .f32) (ix2 (0 : Fin 1) (0 : Fin 1)) = (V c main_v26 : S1x1.Idx → EReal) (ix2 (0 : Fin 1) (0 : Fin 1)) :=
    read1_5 V c t 0 0
  rw [h0, h1, h2, h4, h3, h5]

/-- WHAT POINT `t` WRITES BACK is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz, View.ld_unit_zero (S := S1x1) hz]
  obtain ⟨e00, e01, e10, e11, e20, e21, e30, e31, e40, e41, e50, e51, eo0, eo1⟩ := idx1 t
  have hN : cfg1.N = 10 := N_1
  funext j
  have hj0 : (j 0).val < 5000 := (j 0).isLt
  have hj1 : (j 1).val < 128 := (j 1).isLt
  have ht : t.val < 10 := hN ▸ t.isLt
  have hjj : j = ix2 (⟨(j 0).val, hj0⟩ : Fin 5000) (⟨(j 1).val, hj1⟩ : Fin 128) := funext fun a => by
    match a with
    | ⟨0, _⟩ => rfl
    | ⟨1, _⟩ => rfl
  rw [View.read_apply]
  refine ((congrArg _ hjj).trans (stored1 V c t ⟨(j 0).val, hj0⟩ ⟨(j 1).val, hj1⟩ ⟨t.val * 5000 + (j 0).val, by omega⟩ rfl)).trans ?_
  refine congrArg (G1 V c) (funext fun a => Fin.ext ?_)
  match a with
  | ⟨0, _⟩ => show t.val * 5000 + (j 0).val = win1_6.index t (0 : Fin 2) * 5000 + 1 * (j 0).val; rw [eo0]; omega
  | ⟨1, _⟩ => show (j 1).val = win1_6.index t (1 : Fin 2) * 128 + 1 * (j 1).val; rw [eo1]; omega

/-- THE ARRAY after region 1: its ten row blocks tile it, so it holds `G1` everywhere. -/
theorem final1 (c : Dev nD) : (dat1 V c).arrAt 6 cfg1.N = G1 V c :=
  (dat1 V c).arrAt_eq_of_cover 6 (G1 V c) (fun t _ => flushed1_eq V c t) fun i => by
    have hN : cfg1.N = 10 := N_1
    have hi0 : (i 0).val < 50000 := (i 0).isLt
    have hi1 : (i 1).val < 128 := (i 1).isLt
    let t : Fin cfg1.N := ⟨(i 0).val / 5000, by rw [hN]; omega⟩
    obtain ⟨e00, e01, e10, e11, e20, e21, e30, e31, e40, e41, e50, e51, eo0, eo1⟩ := idx1 t
    refine ⟨t, flush1_6 t, ?_⟩
    show i ∈ ((View.whole main_v27).slice (win1_6.rect t)).set
    rw [View.set_slice_whole, Rect.mem_set_unit]
    intro a
    match a with
    | ⟨0, _⟩ =>
      show win1_6.index t (0 : Fin 2) * 5000 ≤ (i 0).val ∧ (i 0).val < win1_6.index t (0 : Fin 2) * 5000 + 5000
      rw [eo0]; show (i 0).val / 5000 * 5000 ≤ (i 0).val ∧ (i 0).val < (i 0).val / 5000 * 5000 + 5000; omega
    | ⟨1, _⟩ =>
      show win1_6.index t (1 : Fin 2) * 128 ≤ (i 1).val ∧ (i 1).val < win1_6.index t (1 : Fin 2) * 128 + 128
      rw [eo1]; omega

/-! # Region 2 -/

/-- The printed index maps of region 2, decided over the grid: the row-blocked windows are at block `(t, 0)`, the others at `(0, 0)`. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- What region 2's output array holds after the region, as one function of the arrays the region is entered with. -/
def G2 (c : Dev nD) : S50000x128.Idx → EReal :=
  Cert.Sage.layer1 (V c main_v40 : S50000x128.Idx → EReal) (V c main_v28 : S50000x128.Idx → EReal) (V c main_arg5 : S128x128.Idx → EReal) (V c main_arg7 : S128x128.Idx → EReal) (fun q => (V c main_v41 : S1x128.Idx → EReal) (ix2 (0 : Fin 1) q)) ((V c main_v42 : S1x1.Idx → EReal) (ix2 (0 : Fin 1) (0 : Fin 1)))

/-- Region 2, window 0: row `p` of the block at point `t` is row `5000 t + p` of the array. -/
theorem read2_0 (c : Dev nD) (t : Fin cfg2.N) (p : Fin 5000) (k : Fin 128) (r : Fin 50000) (hr : r.val = t.val * 5000 + p.val) :
    (iblk2 V c 0 t : Vec Ideal S5000x128 .f32) (ix2 p k) = (V c main_v40 : S50000x128.Idx → EReal) (ix2 r k) := by
  obtain ⟨e00, e01, e10, e11, e20, e21, e30, e31, e40, e41, e50, e51, eo0, eo1⟩ := idx2 t
  unfold iblk2
  rw [View.read_apply]
  refine congrArg (V c main_v40 : S50000x128.Idx → EReal) (funext fun a => Fin.ext ?_)
  match a with
  | ⟨0, _⟩ => show win2_0.index t (0 : Fin 2) * 5000 + 1 * p.val = r.val; rw [e00, hr]; omega
  | ⟨1, _⟩ => show win2_0.index t (1 : Fin 2) * 128 + 1 * k.val = k.val; rw [e01]; omega

/-- Region 2, window 1: row `p` of the block at point `t` is row `5000 t + p` of the array. -/
theorem read2_1 (c : Dev nD) (t : Fin cfg2.N) (p : Fin 5000) (k : Fin 128) (r : Fin 50000) (hr : r.val = t.val * 5000 + p.val) :
    (iblk2 V c 1 t : Vec Ideal S5000x128 .f32) (ix2 p k) = (V c main_v28 : S50000x128.Idx → EReal) (ix2 r k) := by
  obtain ⟨e00, e01, e10, e11, e20, e21, e30, e31, e40, e41, e50, e51, eo0, eo1⟩ := idx2 t
  unfold iblk2
  rw [View.read_apply]
  refine congrArg (V c main_v28 : S50000x128.Idx → EReal) (funext fun a => Fin.ext ?_)
  match a with
  | ⟨0, _⟩ => show win2_1.index t (0 : Fin 2) * 5000 + 1 * p.val = r.val; rw [e10, hr]; omega
  | ⟨1, _⟩ => show win2_1.index t (1 : Fin 2) * 128 + 1 * k.val = k.val; rw [e11]; omega

/-- Region 2, window 2: the block at every point is the whole array. -/
theorem read2_2 (c : Dev nD) (t : Fin cfg2.N) (a0 : Fin 128) (a1 : Fin 128) :
    (iblk2 V c 2 t : Vec Ideal S128x128 .f32) (ix2 a0 a1) = (V c main_arg5 : S128x128.Idx → EReal) (ix2 a0 a1) := by
  obtain ⟨e00, e01, e10, e11, e20, e21, e30, e31, e40, e41, e50, e51, eo0, eo1⟩ := idx2 t
  unfold iblk2
  rw [View.read_apply]
  refine congrArg (V c main_arg5 : S128x128.Idx → EReal) (funext fun a => Fin.ext ?_)
  match a with
  | ⟨0, _⟩ => show win2_2.index t (0 : Fin 2) * 128 + 1 * a0.val = a0.val; rw [e20]; omega
  | ⟨1, _⟩ => show win2_2.index t (1 : Fin 2) * 128 + 1 * a1.val = a1.val; rw [e21]; omega

/-- Region 2, window 3: the block at every point is the whole array. -/
theorem read2_3 (c : Dev nD) (t : Fin cfg2.N) (a0 : Fin 1) (a1 : Fin 128) :
    (iblk2 V c 3 t : Vec Ideal S1x128 .f32) (ix2 a0 a1) = (V c main_v41 : S1x128.Idx → EReal) (ix2 a0 a1) := by
  obtain ⟨e00, e01, e10, e11, e20, e21, e30, e31, e40, e41, e50, e51, eo0, eo1⟩ := idx2 t
  unfold iblk2
  rw [View.read_apply]
  refine congrArg (V c main_v41 : S1x128.Idx → EReal) (funext fun a => Fin.ext ?_)
  match a with
  | ⟨0, _⟩ => show win2_3.index t (0 : Fin 2) * 1 + 1 * a0.val = a0.val; rw [e30]; omega
  | ⟨1, _⟩ => show win2_3.index t (1 : Fin 2) * 128 + 1 * a1.val = a1.val; rw [e31]; omega

/-- Region 2, window 4: the block at every point is the whole array. -/
theorem read2_4 (c : Dev nD) (t : Fin cfg2.N) (a0 : Fin 128) (a1 : Fin 128) :
    (iblk2 V c 4 t : Vec Ideal S128x128 .f32) (ix2 a0 a1) = (V c main_arg7 : S128x128.Idx → EReal) (ix2 a0 a1) := by
  obtain ⟨e00, e01, e10, e11, e20, e21, e30, e31, e40, e41, e50, e51, eo0, eo1⟩ := idx2 t
  unfold iblk2
  rw [View.read_apply]
  refine congrArg (V c main_arg7 : S128x128.Idx → EReal) (funext fun a => Fin.ext ?_)
  match a with
  | ⟨0, _⟩ => show win2_4.index t (0 : Fin 2) * 128 + 1 * a0.val = a0.val; rw [e40]; omega
  | ⟨1, _⟩ => show win2_4.index t (1 : Fin 2) * 128 + 1 * a1.val = a1.val; rw [e41]; omega

/-- Region 2, window 5: the block at every point is the whole array. -/
theorem read2_5 (c : Dev nD) (t : Fin cfg2.N) (a0 : Fin 1) (a1 : Fin 1) :
    (iblk2 V c 5 t : Vec Ideal S1x1 .f32) (ix2 a0 a1) = (V c main_v42 : S1x1.Idx → EReal) (ix2 a0 a1) := by
  obtain ⟨e00, e01, e10, e11, e20, e21, e30, e31, e40, e41, e50, e51, eo0, eo1⟩ := idx2 t
  unfold iblk2
  rw [View.read_apply]
  refine congrArg (V c main_v42 : S1x1.Idx → EReal) (funext fun a => Fin.ext ?_)
  match a with
  | ⟨0, _⟩ => show win2_5.index t (0 : Fin 2) * 1 + 1 * a0.val = a0.val; rw [e50]; omega
  | ⟨1, _⟩ => show win2_5.index t (1 : Fin 2) * 1 + 1 * a1.val = a1.val; rw [e51]; omega

/-- Region 2: what the body stores at `(p, q)` of its block at point `t` is `G2` at row `5000 t + p`. -/
theorem stored2 (c : Dev nD) (t : Fin cfg2.N) (p : Fin 5000) (q : Fin 128) (r : Fin 50000) (hr : r.val = t.val * 5000 + p.val) :
    k2_pay1 (F := Ideal) (iblk2 V c 0 t) (iblk2 V c 1 t) (iblk2 V c 2 t) (iblk2 V c 4 t) (iblk2 V c 3 t) (iblk2 V c 5 t) (ix2 p q) = G2 V c (ix2 r q) := by
  refine (Cert.KernelIdeal.Pay.pay2_at (iblk2 V c 0 t) (iblk2 V c 1 t) (iblk2 V c 2 t) (iblk2 V c 4 t) (iblk2 V c 3 t) (iblk2 V c 5 t) p q).trans ?_
  unfold G2 Cert.Sage.layer1 Cert.Sage.rowOf Cert.Sage.mat
  have h0 : (fun k : Fin 128 => (iblk2 V c 0 t : Vec Ideal S5000x128 .f32) (ix2 p k)) = fun k => (V c main_v40 : S50000x128.Idx → EReal) (ix2 r k) :=
    funext fun k => read2_0 V c t p k r hr
  have h1 : (fun k : Fin 128 => (iblk2 V c 1 t : Vec Ideal S5000x128 .f32) (ix2 p k)) = fun k => (V c main_v28 : S50000x128.Idx → EReal) (ix2 r k) :=
    funext fun k => read2_1 V c t p k r hr
  have h2 : (fun (k c' : Fin 128) => (iblk2 V c 2 t : Vec Ideal S128x128 .f32) (ix2 k c')) = fun k c' => (V c main_arg5 : S128x128.Idx → EReal) (ix2 k c') :=
    funext fun k => funext fun c' => read2_2 V c t k c'
  have h4 : (fun (k c' : Fin 128) => (iblk2 V c 4 t : Vec Ideal S128x128 .f32) (ix2 k c')) = fun k c' => (V c main_arg7 : S128x128.Idx → EReal) (ix2 k c') :=
    funext fun k => funext fun c' => read2_4 V c t k c'
  have h3 : (fun c' : Fin 128 => (iblk2 V c 3 t : Vec Ideal S1x128 .f32) (ix2 (0 : Fin 1) c')) = fun c' => (V c main_v41 : S1x128.Idx → EReal) (ix2 (0 : Fin 1) c') :=
    funext fun c' => read2_3 V c t 0 c'
  have h5 : (iblk2 V c 5 t : Vec Ideal S1x1 .f32) (ix2 (0 : Fin 1) (0 : Fin 1)) = (V c main_v42 : S1x1.Idx → EReal) (ix2 (0 : Fin 1) (0 : Fin 1)) :=
    read2_5 V c t 0 0
  rw [h0, h1, h2, h4, h3, h5]

/-- WHAT POINT `t` WRITES BACK is block `t` of `G2`. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz, View.ld_unit_zero (S := S1x1) hz]
  obtain ⟨e00, e01, e10, e11, e20, e21, e30, e31, e40, e41, e50, e51, eo0, eo1⟩ := idx2 t
  have hN : cfg2.N = 10 := N_2
  funext j
  have hj0 : (j 0).val < 5000 := (j 0).isLt
  have hj1 : (j 1).val < 128 := (j 1).isLt
  have ht : t.val < 10 := hN ▸ t.isLt
  have hjj : j = ix2 (⟨(j 0).val, hj0⟩ : Fin 5000) (⟨(j 1).val, hj1⟩ : Fin 128) := funext fun a => by
    match a with
    | ⟨0, _⟩ => rfl
    | ⟨1, _⟩ => rfl
  rw [View.read_apply]
  refine ((congrArg _ hjj).trans (stored2 V c t ⟨(j 0).val, hj0⟩ ⟨(j 1).val, hj1⟩ ⟨t.val * 5000 + (j 0).val, by omega⟩ rfl)).trans ?_
  refine congrArg (G2 V c) (funext fun a => Fin.ext ?_)
  match a with
  | ⟨0, _⟩ => show t.val * 5000 + (j 0).val = win2_6.index t (0 : Fin 2) * 5000 + 1 * (j 0).val; rw [eo0]; omega
  | ⟨1, _⟩ => show (j 1).val = win2_6.index t (1 : Fin 2) * 128 + 1 * (j 1).val; rw [eo1]; omega

/-- THE ARRAY after region 2: its ten row blocks tile it, so it holds `G2` everywhere. -/
theorem final2 (c : Dev nD) : (dat2 V c).arrAt 6 cfg2.N = G2 V c :=
  (dat2 V c).arrAt_eq_of_cover 6 (G2 V c) (fun t _ => flushed2_eq V c t) fun i => by
    have hN : cfg2.N = 10 := N_2
    have hi0 : (i 0).val < 50000 := (i 0).isLt
    have hi1 : (i 1).val < 128 := (i 1).isLt
    let t : Fin cfg2.N := ⟨(i 0).val / 5000, by rw [hN]; omega⟩
    obtain ⟨e00, e01, e10, e11, e20, e21, e30, e31, e40, e41, e50, e51, eo0, eo1⟩ := idx2 t
    refine ⟨t, flush2_6 t, ?_⟩
    show i ∈ ((View.whole main_v43).slice (win2_6.rect t)).set
    rw [View.set_slice_whole, Rect.mem_set_unit]
    intro a
    match a with
    | ⟨0, _⟩ =>
      show win2_6.index t (0 : Fin 2) * 5000 ≤ (i 0).val ∧ (i 0).val < win2_6.index t (0 : Fin 2) * 5000 + 5000
      rw [eo0]; show (i 0).val / 5000 * 5000 ≤ (i 0).val ∧ (i 0).val < (i 0).val / 5000 * 5000 + 5000; omega
    | ⟨1, _⟩ =>
      show win2_6.index t (1 : Fin 2) * 128 ≤ (i 1).val ∧ (i 1).val < win2_6.index t (1 : Fin 2) * 128 + 128
      rw [eo1]; omega

/-! # Region 3 -/

/-- The printed index maps of region 3, decided over the grid: the row-blocked windows are at block `(t, 0)`, the others at `(0, 0)`. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- What region 3's output array holds after the region, as one function of the arrays the region is entered with. -/
def G3 (c : Dev nD) : S50000x128.Idx → EReal :=
  Cert.Sage.layer2 (V c main_v56 : S50000x128.Idx → EReal) (V c main_v44 : S50000x128.Idx → EReal) (V c main_arg8 : S128x128.Idx → EReal) (V c main_arg10 : S128x128.Idx → EReal) (fun q => (V c main_v57 : S1x128.Idx → EReal) (ix2 (0 : Fin 1) q)) ((V c main_v58 : S1x1.Idx → EReal) (ix2 (0 : Fin 1) (0 : Fin 1)))

/-- Region 3, window 0: row `p` of the block at point `t` is row `5000 t + p` of the array. -/
theorem read3_0 (c : Dev nD) (t : Fin cfg3.N) (p : Fin 5000) (k : Fin 128) (r : Fin 50000) (hr : r.val = t.val * 5000 + p.val) :
    (iblk3 V c 0 t : Vec Ideal S5000x128 .f32) (ix2 p k) = (V c main_v56 : S50000x128.Idx → EReal) (ix2 r k) := by
  obtain ⟨e00, e01, e10, e11, e20, e21, e30, e31, e40, e41, e50, e51, eo0, eo1⟩ := idx3 t
  unfold iblk3
  rw [View.read_apply]
  refine congrArg (V c main_v56 : S50000x128.Idx → EReal) (funext fun a => Fin.ext ?_)
  match a with
  | ⟨0, _⟩ => show win3_0.index t (0 : Fin 2) * 5000 + 1 * p.val = r.val; rw [e00, hr]; omega
  | ⟨1, _⟩ => show win3_0.index t (1 : Fin 2) * 128 + 1 * k.val = k.val; rw [e01]; omega

/-- Region 3, window 1: row `p` of the block at point `t` is row `5000 t + p` of the array. -/
theorem read3_1 (c : Dev nD) (t : Fin cfg3.N) (p : Fin 5000) (k : Fin 128) (r : Fin 50000) (hr : r.val = t.val * 5000 + p.val) :
    (iblk3 V c 1 t : Vec Ideal S5000x128 .f32) (ix2 p k) = (V c main_v44 : S50000x128.Idx → EReal) (ix2 r k) := by
  obtain ⟨e00, e01, e10, e11, e20, e21, e30, e31, e40, e41, e50, e51, eo0, eo1⟩ := idx3 t
  unfold iblk3
  rw [View.read_apply]
  refine congrArg (V c main_v44 : S50000x128.Idx → EReal) (funext fun a => Fin.ext ?_)
  match a with
  | ⟨0, _⟩ => show win3_1.index t (0 : Fin 2) * 5000 + 1 * p.val = r.val; rw [e10, hr]; omega
  | ⟨1, _⟩ => show win3_1.index t (1 : Fin 2) * 128 + 1 * k.val = k.val; rw [e11]; omega

/-- Region 3, window 2: the block at every point is the whole array. -/
theorem read3_2 (c : Dev nD) (t : Fin cfg3.N) (a0 : Fin 128) (a1 : Fin 128) :
    (iblk3 V c 2 t : Vec Ideal S128x128 .f32) (ix2 a0 a1) = (V c main_arg8 : S128x128.Idx → EReal) (ix2 a0 a1) := by
  obtain ⟨e00, e01, e10, e11, e20, e21, e30, e31, e40, e41, e50, e51, eo0, eo1⟩ := idx3 t
  unfold iblk3
  rw [View.read_apply]
  refine congrArg (V c main_arg8 : S128x128.Idx → EReal) (funext fun a => Fin.ext ?_)
  match a with
  | ⟨0, _⟩ => show win3_2.index t (0 : Fin 2) * 128 + 1 * a0.val = a0.val; rw [e20]; omega
  | ⟨1, _⟩ => show win3_2.index t (1 : Fin 2) * 128 + 1 * a1.val = a1.val; rw [e21]; omega

/-- Region 3, window 3: the block at every point is the whole array. -/
theorem read3_3 (c : Dev nD) (t : Fin cfg3.N) (a0 : Fin 1) (a1 : Fin 128) :
    (iblk3 V c 3 t : Vec Ideal S1x128 .f32) (ix2 a0 a1) = (V c main_v57 : S1x128.Idx → EReal) (ix2 a0 a1) := by
  obtain ⟨e00, e01, e10, e11, e20, e21, e30, e31, e40, e41, e50, e51, eo0, eo1⟩ := idx3 t
  unfold iblk3
  rw [View.read_apply]
  refine congrArg (V c main_v57 : S1x128.Idx → EReal) (funext fun a => Fin.ext ?_)
  match a with
  | ⟨0, _⟩ => show win3_3.index t (0 : Fin 2) * 1 + 1 * a0.val = a0.val; rw [e30]; omega
  | ⟨1, _⟩ => show win3_3.index t (1 : Fin 2) * 128 + 1 * a1.val = a1.val; rw [e31]; omega

/-- Region 3, window 4: the block at every point is the whole array. -/
theorem read3_4 (c : Dev nD) (t : Fin cfg3.N) (a0 : Fin 128) (a1 : Fin 128) :
    (iblk3 V c 4 t : Vec Ideal S128x128 .f32) (ix2 a0 a1) = (V c main_arg10 : S128x128.Idx → EReal) (ix2 a0 a1) := by
  obtain ⟨e00, e01, e10, e11, e20, e21, e30, e31, e40, e41, e50, e51, eo0, eo1⟩ := idx3 t
  unfold iblk3
  rw [View.read_apply]
  refine congrArg (V c main_arg10 : S128x128.Idx → EReal) (funext fun a => Fin.ext ?_)
  match a with
  | ⟨0, _⟩ => show win3_4.index t (0 : Fin 2) * 128 + 1 * a0.val = a0.val; rw [e40]; omega
  | ⟨1, _⟩ => show win3_4.index t (1 : Fin 2) * 128 + 1 * a1.val = a1.val; rw [e41]; omega

/-- Region 3, window 5: the block at every point is the whole array. -/
theorem read3_5 (c : Dev nD) (t : Fin cfg3.N) (a0 : Fin 1) (a1 : Fin 1) :
    (iblk3 V c 5 t : Vec Ideal S1x1 .f32) (ix2 a0 a1) = (V c main_v58 : S1x1.Idx → EReal) (ix2 a0 a1) := by
  obtain ⟨e00, e01, e10, e11, e20, e21, e30, e31, e40, e41, e50, e51, eo0, eo1⟩ := idx3 t
  unfold iblk3
  rw [View.read_apply]
  refine congrArg (V c main_v58 : S1x1.Idx → EReal) (funext fun a => Fin.ext ?_)
  match a with
  | ⟨0, _⟩ => show win3_5.index t (0 : Fin 2) * 1 + 1 * a0.val = a0.val; rw [e50]; omega
  | ⟨1, _⟩ => show win3_5.index t (1 : Fin 2) * 1 + 1 * a1.val = a1.val; rw [e51]; omega

/-- Region 3: what the body stores at `(p, q)` of its block at point `t` is `G3` at row `5000 t + p`. -/
theorem stored3 (c : Dev nD) (t : Fin cfg3.N) (p : Fin 5000) (q : Fin 128) (r : Fin 50000) (hr : r.val = t.val * 5000 + p.val) :
    k3_pay1 (F := Ideal) (iblk3 V c 0 t) (iblk3 V c 1 t) (iblk3 V c 2 t) (iblk3 V c 4 t) (iblk3 V c 3 t) (iblk3 V c 5 t) (ix2 p q) = G3 V c (ix2 r q) := by
  refine (Cert.KernelIdeal.Pay.pay3_at (iblk3 V c 0 t) (iblk3 V c 1 t) (iblk3 V c 2 t) (iblk3 V c 4 t) (iblk3 V c 3 t) (iblk3 V c 5 t) p q).trans ?_
  unfold G3 Cert.Sage.layer2 Cert.Sage.rowOf Cert.Sage.mat
  have h0 : (fun k : Fin 128 => (iblk3 V c 0 t : Vec Ideal S5000x128 .f32) (ix2 p k)) = fun k => (V c main_v56 : S50000x128.Idx → EReal) (ix2 r k) :=
    funext fun k => read3_0 V c t p k r hr
  have h1 : (fun k : Fin 128 => (iblk3 V c 1 t : Vec Ideal S5000x128 .f32) (ix2 p k)) = fun k => (V c main_v44 : S50000x128.Idx → EReal) (ix2 r k) :=
    funext fun k => read3_1 V c t p k r hr
  have h2 : (fun (k c' : Fin 128) => (iblk3 V c 2 t : Vec Ideal S128x128 .f32) (ix2 k c')) = fun k c' => (V c main_arg8 : S128x128.Idx → EReal) (ix2 k c') :=
    funext fun k => funext fun c' => read3_2 V c t k c'
  have h4 : (fun (k c' : Fin 128) => (iblk3 V c 4 t : Vec Ideal S128x128 .f32) (ix2 k c')) = fun k c' => (V c main_arg10 : S128x128.Idx → EReal) (ix2 k c') :=
    funext fun k => funext fun c' => read3_4 V c t k c'
  have h3 : (fun c' : Fin 128 => (iblk3 V c 3 t : Vec Ideal S1x128 .f32) (ix2 (0 : Fin 1) c')) = fun c' => (V c main_v57 : S1x128.Idx → EReal) (ix2 (0 : Fin 1) c') :=
    funext fun c' => read3_3 V c t 0 c'
  have h5 : (iblk3 V c 5 t : Vec Ideal S1x1 .f32) (ix2 (0 : Fin 1) (0 : Fin 1)) = (V c main_v58 : S1x1.Idx → EReal) (ix2 (0 : Fin 1) (0 : Fin 1)) :=
    read3_5 V c t 0 0
  rw [h0, h1, h2, h4, h3, h5]

/-- WHAT POINT `t` WRITES BACK is block `t` of `G3`. -/
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz, View.ld_unit_zero (S := S1x1) hz]
  obtain ⟨e00, e01, e10, e11, e20, e21, e30, e31, e40, e41, e50, e51, eo0, eo1⟩ := idx3 t
  have hN : cfg3.N = 10 := N_3
  funext j
  have hj0 : (j 0).val < 5000 := (j 0).isLt
  have hj1 : (j 1).val < 128 := (j 1).isLt
  have ht : t.val < 10 := hN ▸ t.isLt
  have hjj : j = ix2 (⟨(j 0).val, hj0⟩ : Fin 5000) (⟨(j 1).val, hj1⟩ : Fin 128) := funext fun a => by
    match a with
    | ⟨0, _⟩ => rfl
    | ⟨1, _⟩ => rfl
  rw [View.read_apply]
  refine ((congrArg _ hjj).trans (stored3 V c t ⟨(j 0).val, hj0⟩ ⟨(j 1).val, hj1⟩ ⟨t.val * 5000 + (j 0).val, by omega⟩ rfl)).trans ?_
  refine congrArg (G3 V c) (funext fun a => Fin.ext ?_)
  match a with
  | ⟨0, _⟩ => show t.val * 5000 + (j 0).val = win3_6.index t (0 : Fin 2) * 5000 + 1 * (j 0).val; rw [eo0]; omega
  | ⟨1, _⟩ => show (j 1).val = win3_6.index t (1 : Fin 2) * 128 + 1 * (j 1).val; rw [eo1]; omega

/-- THE ARRAY after region 3: its ten row blocks tile it, so it holds `G3` everywhere. -/
theorem final3 (c : Dev nD) : (dat3 V c).arrAt 6 cfg3.N = G3 V c :=
  (dat3 V c).arrAt_eq_of_cover 6 (G3 V c) (fun t _ => flushed3_eq V c t) fun i => by
    have hN : cfg3.N = 10 := N_3
    have hi0 : (i 0).val < 50000 := (i 0).isLt
    have hi1 : (i 1).val < 128 := (i 1).isLt
    let t : Fin cfg3.N := ⟨(i 0).val / 5000, by rw [hN]; omega⟩
    obtain ⟨e00, e01, e10, e11, e20, e21, e30, e31, e40, e41, e50, e51, eo0, eo1⟩ := idx3 t
    refine ⟨t, flush3_6 t, ?_⟩
    show i ∈ ((View.whole main_v59).slice (win3_6.rect t)).set
    rw [View.set_slice_whole, Rect.mem_set_unit]
    intro a
    match a with
    | ⟨0, _⟩ =>
      show win3_6.index t (0 : Fin 2) * 5000 ≤ (i 0).val ∧ (i 0).val < win3_6.index t (0 : Fin 2) * 5000 + 5000
      rw [eo0]; show (i 0).val / 5000 * 5000 ≤ (i 0).val ∧ (i 0).val < (i 0).val / 5000 * 5000 + 5000; omega
    | ⟨1, _⟩ =>
      show win3_6.index t (1 : Fin 2) * 128 ≤ (i 1).val ∧ (i 1).val < win3_6.index t (1 : Fin 2) * 128 + 128
      rw [eo1]; omega

end Cert.KernelIdeal.Blocks

end
-- ==== Proof.SageRefDefs.lean ====
/-
  The reference's whole-array stages, named once. Each definition is a stretch of the reference's host operations
  applied to its operands: the wrapped source indices and the destination indices read out of the edge array, the
  in-degree bounded below by one, the mean of the gathered neighbour rows, the two matrix products with the bias,
  the row scaling, the leaky activation, the skip connection — and their composition over the three layers.
-/
import proofs.«128962_j16595753632514_1_alg».proof.Proof.Gen.ReferenceIdeal
import proofs.«128962_j16595753632514_1_alg».proof.Proof.SageSpec

noncomputable section

namespace Cert.ReferenceIdeal.RefValue

open Cert.ReferenceIdeal Cert.ReferenceIdeal.Facts₀ Cert.ReferenceIdeal.Facts
open Idealize.ShloMosaic Idealize.ShloMosaic.TcCoe Idealize.SL.Sem

/-- A [50000, 128] array, a [128, 128] matrix, a [128] row, a scalar, the [2, 800000] edge array, an [800000] index list. -/
abbrev A : Type := FVec Ideal S50000x128 .f32
abbrev Wm : Type := FVec Ideal S128x128 .f32
abbrev Bv : Type := FVec Ideal S128 .f32
abbrev Sc : Type := FVec Ideal S_ .f32
abbrev Ed : Type := IVec S2x800000 32
abbrev Iv : Type := IVec S800000 32
abbrev Dg : Type := FVec Ideal S50000 .f32
abbrev Cl : Type := FVec Ideal S50000x1 .f32

/-- Row 0 of the edge array: the source node of every edge. -/
def srcOf (E : Ed) : Iv :=
  shapeCast _ (extractStridedSlice S1x800000 ![0, 0] E slices_S2x800000_S1x800000_0_0) shapeCasts_S1x800000_S800000

/-- Row 1 of the edge array: the destination node of every edge. -/
def dstOf (E : Ed) : Iv :=
  shapeCast _ (extractStridedSlice S1x800000 ![1, 0] E slices_S2x800000_S1x800000_1_0) shapeCasts_S1x800000_S800000

/-- A negative index counts from the end: `s + 50000` where `s < 0`. -/
def wrapOf (s : Iv) : Iv :=
  select (cmpi .slt s (broadcastInDim S800000 ![] bcast_S_S800000 (constantI S_ 32 0#32)))
    (addi s (broadcastInDim S800000 ![] bcast_S_S800000 (constantI S_ 32 50000#32))) s

/-- The number of edges into each node, at least one. -/
def degOf (d : Iv) : Dg :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32))

/-- The in-degree as a [50000, 1] column. -/
def degCol (d : Iv) : Cl :=
  broadcastInDim S50000x1 ![0] bcast_S50000_S50000x1_0 (degOf d)

/-- The sum over each node's incoming edges of the source node's row, divided by a [50000, 1] column. -/
def meanOf (X : A) (s d : Iv) (col : Cl) : A :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 X
        (broadcastInDim S800000x1 ![0] bcast_S800000_S800000x1_0 (wrapOf s))))
    (broadcastInDim S50000x128 ![0, 1] bcast_S50000x1_S50000x128_0_1 col)

/-- The mean of each node's neighbour rows. -/
def aggOf (X : A) (s d : Iv) : A := meanOf X s d (degCol d)

/-- The two matrix products and the bias row between them. -/
def denseOf (G X : A) (Wl : Wm) (bl : Bv) (Wr : Wm) : A :=
  addf
    (addf (Host.dotGeneral dot_S50000x128_S128x128_S50000x128_1_0_0_1_n_n none G Wl)
      (broadcastInDim S50000x128 ![0, 1] bcast_S1x128_S50000x128_0_1 (broadcastInDim S1x128 ![1] bcast_S128_S1x128_1 bl)))
    (Host.dotGeneral dot_S50000x128_S128x128_S50000x128_1_0_0_1_n_n none X Wr)

/-- Every row divided by its Euclidean length (bounded below). -/
def unitOf (O : A) : A :=
  Host.divf O
    (broadcastInDim S50000x128 ![0, 1] bcast_S50000x1_S50000x128_0_1
      (maximumf
        (Host.sqrt (broadcastInDim S50000x1 ![0] bcast_S50000_S50000x1_0
          (Host.reduceAdd (mulf O O) (constant S_ .f32 0x00000000#32) reducesTo_S50000x128_S50000_d1 h_S_)))
        (broadcastInDim S50000x1 ![] bcast_S_S50000x1 (constant S_ .f32 0x2B8CBCCC#32))))

/-- The leaky activation with the slope `s`. -/
def preluOf (s : Sc) (Y : A) : A :=
  select (cmpf .oge Y (broadcastInDim S50000x128 ![] bcast_S_S50000x128 (constant S_ .f32 0x00000000#32))) Y
    (mulf (broadcastInDim S50000x128 ![] bcast_S_S50000x128 s) Y)

/-- The skip connection. -/
def skipOf (X : A) (Ws : Wm) (bs : Bv) : A :=
  addf (Host.dotGeneral dot_S50000x128_S128x128_S50000x128_1_0_0_1_n_n none X Ws)
    (broadcastInDim S50000x128 ![0, 1] bcast_S1x128_S50000x128_0_1 (broadcastInDim S1x128 ![1] bcast_S128_S1x128_1 bs))

/-- The sum of two arrays, element by element. -/
def sumOf (X Y : A) : A := addf X Y

/-- A layer that activates once. -/
def layerOf (X : A) (s d : Iv) (Wl : Wm) (bl : Bv) (Wr : Wm) (a : Sc) : A :=
  preluOf a (unitOf (denseOf (aggOf X s d) X Wl bl Wr))

/-- The whole encoder, as a function of @main's fourteen arguments in their order. -/
def finalOf (x : A) (E : Ed) (W1l : Wm) (b1l : Bv) (W1r W2l : Wm) (b2l : Bv) (W2r W3l : Wm) (b3l : Bv) (W3r Ws : Wm) (bs : Bv) (a : Sc) : A :=
  preluOf a (layerOf
    (sumOf (layerOf (sumOf (layerOf x (srcOf E) (dstOf E) W1l b1l W1r a) (skipOf x Ws bs)) (srcOf E) (dstOf E) W2l b2l W2r a) (skipOf x Ws bs))
    (srcOf E) (dstOf E) W3l b3l W3r a)

end Cert.ReferenceIdeal.RefValue

end
-- ==== Proof.SageFold.lean ====
/-
  The idealized kernel's result buffer at the end of the run, as one function of the fourteen arguments.

  The program is four regions with stretches of host operations between them. Walking its buffers forward from the
  launch: the first stretch reads the source and destination index lists out of the edge array and counts the
  in-degrees; the first region writes the skip connection; before each later region a stretch gathers the current
  features along the edges, sums them at the destinations, divides by the in-degree, and (from the second layer on)
  adds the skip connection to the previous region's output; each region then writes its layer function of the two
  arrays it is entered with. A buffer that a stretch or a region does not write keeps what it held.
-/
import proofs.«128962_j16595753632514_1_alg».proof.Proof.Gen.KernelIdeal.Frame
import proofs.«128962_j16595753632514_1_alg».proof.Proof.SageBlocks
import proofs.«128962_j16595753632514_1_alg».proof.Proof.SageRefDefs
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx Idealize.ShloMosaic.StableHlo
open Cert.ReferenceIdeal.RefValue (srcOf dstOf degCol meanOf sumOf)

variable (m : (ℓ : Loc nD τ sig) → Buf (Elt Ideal) ℓ) (ρ : Dev nD → PrngReg) (c : Dev nD)

/-! ## The arguments, and the values the walk meets -/

abbrev aX : Cert.ReferenceIdeal.RefValue.A := m ((c : Thread nD τ).loc main_arg0)
abbrev aE : Cert.ReferenceIdeal.RefValue.Ed := m ((c : Thread nD τ).loc main_arg1)
abbrev aW1l : Cert.ReferenceIdeal.RefValue.Wm := m ((c : Thread nD τ).loc main_arg2)
abbrev aB1l : Cert.ReferenceIdeal.RefValue.Bv := m ((c : Thread nD τ).loc main_arg3)
abbrev aW1r : Cert.ReferenceIdeal.RefValue.Wm := m ((c : Thread nD τ).loc main_arg4)
abbrev aW2l : Cert.ReferenceIdeal.RefValue.Wm := m ((c : Thread nD τ).loc main_arg5)
abbrev aB2l : Cert.ReferenceIdeal.RefValue.Bv := m ((c : Thread nD τ).loc main_arg6)
abbrev aW2r : Cert.ReferenceIdeal.RefValue.Wm := m ((c : Thread nD τ).loc main_arg7)
abbrev aW3l : Cert.ReferenceIdeal.RefValue.Wm := m ((c : Thread nD τ).loc main_arg8)
abbrev aB3l : Cert.ReferenceIdeal.RefValue.Bv := m ((c : Thread nD τ).loc main_arg9)
abbrev aW3r : Cert.ReferenceIdeal.RefValue.Wm := m ((c : Thread nD τ).loc main_arg10)
abbrev aWs : Cert.ReferenceIdeal.RefValue.Wm := m ((c : Thread nD τ).loc main_arg11)
abbrev aBs : Cert.ReferenceIdeal.RefValue.Bv := m ((c : Thread nD τ).loc main_arg12)
abbrev aA : Cert.ReferenceIdeal.RefValue.Sc := m ((c : Thread nD τ).loc main_arg13)

/-- A [128] bias row as the [1, 128] block the kernel reads it through, by its lane. -/
def rowB (b : Cert.ReferenceIdeal.RefValue.Bv) : Fin 128 → EReal :=
  fun q => (shapeCast S1x128 b Facts₀.shapeCasts_S128_S1x128 : FVec Ideal S1x128 .f32) (ix2 (0 : Fin 1) q)
/-- The slope as the [1, 1] block the kernel reads it through. -/
def slope (a : Cert.ReferenceIdeal.RefValue.Sc) : EReal :=
  (shapeCast S1x1 a Facts₀.shapeCasts_S_S1x1 : FVec Ideal S1x1 .f32) (ix2 (0 : Fin 1) (0 : Fin 1))

/-- The source and destination index lists and the in-degree column. -/
def kS : Cert.ReferenceIdeal.RefValue.Iv := srcOf (aE m c)
def kD : Cert.ReferenceIdeal.RefValue.Iv := dstOf (aE m c)
def kC : Cert.ReferenceIdeal.RefValue.Cl := degCol (kD m c)
/-- The skip connection. -/
def k0 : Cert.ReferenceIdeal.RefValue.A := Cert.Sage.skip (aX m c) (aWs m c) (rowB (aBs m c))
/-- A layer that activates once, on the features `X`. -/
def lay (X : Cert.ReferenceIdeal.RefValue.A) (Wl : Cert.ReferenceIdeal.RefValue.Wm) (bl : Cert.ReferenceIdeal.RefValue.Bv) (Wr : Cert.ReferenceIdeal.RefValue.Wm) : Cert.ReferenceIdeal.RefValue.A :=
  Cert.Sage.layer1 (meanOf X (kS m c) (kD m c) (kC m c)) X Wl Wr (rowB bl) (slope (aA m c))
/-- The features after the first and the second layer. -/
def h1 : Cert.ReferenceIdeal.RefValue.A := sumOf (lay m c (aX m c) (aW1l m c) (aB1l m c) (aW1r m c)) (k0 m c)
def h2 : Cert.ReferenceIdeal.RefValue.A := sumOf (lay m c (h1 m c) (aW2l m c) (aB2l m c) (aW2r m c)) (k0 m c)
/-- The result: the last layer, which activates twice. -/
def kF : Cert.ReferenceIdeal.RefValue.A :=
  Cert.Sage.layer2 (meanOf (h2 m c) (kS m c) (kD m c) (kC m c)) (h2 m c) (aW3l m c) (aW3r m c) (rowB (aB3l m c)) (slope (aA m c))

/-! ## After the first stretch of host operations -/

theorem w1_v1 : W1 (F := Ideal) m ρ c (Proc.devRef .tc main_v1) = kS m c := by
  show StableHlo.after hostOps0 (W0 (F := Ideal) m ρ c) (Proc.devRef .tc main_v1) = _
  after_results <;> rfl
theorem w1_v3 : W1 (F := Ideal) m ρ c (Proc.devRef .tc main_v3) = kD m c := by
  show StableHlo.after hostOps0 (W0 (F := Ideal) m ρ c) (Proc.devRef .tc main_v3) = _
  after_results <;> rfl
theorem w1_v10 : W1 (F := Ideal) m ρ c (Proc.devRef .tc main_v10) = kC m c := by
  show StableHlo.after hostOps0 (W0 (F := Ideal) m ρ c) (Proc.devRef .tc main_v10) = _
  after_results <;> rfl
theorem w1_v11 : W1 (F := Ideal) m ρ c (Proc.devRef .tc main_v11) = (shapeCast S1x128 (aBs m c) Facts₀.shapeCasts_S128_S1x128 : FVec Ideal S1x128 .f32) := by
  show StableHlo.after hostOps0 (W0 (F := Ideal) m ρ c) (Proc.devRef .tc main_v11) = _
  after_results <;> rfl
theorem w1_arg0 : W1 (F := Ideal) m ρ c (Proc.devRef .tc main_arg0) = aX m c := by
  show StableHlo.after hostOps0 (W0 (F := Ideal) m ρ c) (Proc.devRef .tc main_arg0) = _
  after_results <;> rfl
theorem w1_arg2 : W1 (F := Ideal) m ρ c (Proc.devRef .tc main_arg2) = aW1l m c := by
  show StableHlo.after hostOps0 (W0 (F := Ideal) m ρ c) (Proc.devRef .tc main_arg2) = _
  after_results <;> rfl
theorem w1_arg3 : W1 (F := Ideal) m ρ c (Proc.devRef .tc main_arg3) = aB1l m c := by
  show StableHlo.after hostOps0 (W0 (F := Ideal) m ρ c) (Proc.devRef .tc main_arg3) = _
  after_results <;> rfl
theorem w1_arg4 : W1 (F := Ideal) m ρ c (Proc.devRef .tc main_arg4) = aW1r m c := by
  show StableHlo.after hostOps0 (W0 (F := Ideal) m ρ c) (Proc.devRef .tc main_arg4) = _
  after_results <;> rfl
theorem w1_arg5 : W1 (F := Ideal) m ρ c (Proc.devRef .tc main_arg5) = aW2l m c := by
  show StableHlo.after hostOps0 (W0 (F := Ideal) m ρ c) (Proc.devRef .tc main_arg5) = _
  after_results <;> rfl
theorem w1_arg6 : W1 (F := Ideal) m ρ c (Proc.devRef .tc main_arg6) = aB2l m c := by
  show StableHlo.after hostOps0 (W0 (F := Ideal) m ρ c) (Proc.devRef .tc main_arg6) = _
  after_results <;> rfl
theorem w1_arg7 : W1 (F := Ideal) m ρ c (Proc.devRef .tc main_arg7) = aW2r m c := by
  show StableHlo.after hostOps0 (W0 (F := Ideal) m ρ c) (Proc.devRef .tc main_arg7) = _
  after_results <;> rfl
theorem w1_arg8 : W1 (F := Ideal) m ρ c (Proc.devRef .tc main_arg8) = aW3l m c := by
  show StableHlo.after hostOps0 (W0 (F := Ideal) m ρ c) (Proc.devRef .tc main_arg8) = _
  after_results <;> rfl
theorem w1_arg9 : W1 (F := Ideal) m ρ c (Proc.devRef .tc main_arg9) = aB3l m c := by
  show StableHlo.after hostOps0 (W0 (F := Ideal) m ρ c) (Proc.devRef .tc main_arg9) = _
  after_results <;> rfl
theorem w1_arg10 : W1 (F := Ideal) m ρ c (Proc.devRef .tc main_arg10) = aW3r m c := by
  show StableHlo.after hostOps0 (W0 (F := Ideal) m ρ c) (Proc.devRef .tc main_arg10) = _
  after_results <;> rfl
theorem w1_arg11 : W1 (F := Ideal) m ρ c (Proc.devRef .tc main_arg11) = aWs m c := by
  show StableHlo.after hostOps0 (W0 (F := Ideal) m ρ c) (Proc.devRef .tc main_arg11) = _
  after_results <;> rfl
theorem w1_arg13 : W1 (F := Ideal) m ρ c (Proc.devRef .tc main_arg13) = aA m c := by
  show StableHlo.after hostOps0 (W0 (F := Ideal) m ρ c) (Proc.devRef .tc main_arg13) = _
  after_results <;> rfl

/-! ## After the first region (the skip connection) -/

theorem w2_v12 : W2 (F := Ideal) m ρ c (Proc.devRef .tc main_v12) = k0 m c := by
  refine (W2_arr m ρ c 3).trans ((Cert.KernelIdeal.Blocks.final0 (V1 (F := Ideal) m ρ) c).trans ?_)
  unfold Cert.KernelIdeal.Blocks.G0 k0 rowB
  show Cert.Sage.skip (W1 (F := Ideal) m ρ c (Proc.devRef .tc main_arg0)) (W1 (F := Ideal) m ρ c (Proc.devRef .tc main_arg11))
      (fun q => (W1 (F := Ideal) m ρ c (Proc.devRef .tc main_v11) : S1x128.Idx → EReal) (ix2 (0 : Fin 1) q)) = _
  rw [w1_arg0, w1_arg11, w1_v11]
theorem w2_arg0 : W2 (F := Ideal) m ρ c (Proc.devRef .tc main_arg0) = aX m c :=
  (W2_arr m ρ c 0).trans ((((dat0 (V1 (F := Ideal) m ρ) c).arrAt_in 0 rfl _).trans (A_eq0 (V1 (F := Ideal) m ρ) c 0)).trans (w1_arg0 m ρ c))
theorem w2_v1 : W2 (F := Ideal) m ρ c (Proc.devRef .tc main_v1) = kS m c :=
  (W2_of_ne m ρ c main_v1 (by decide)).trans (w1_v1 m ρ c)
theorem w2_v3 : W2 (F := Ideal) m ρ c (Proc.devRef .tc main_v3) = kD m c :=
  (W2_of_ne m ρ c main_v3 (by decide)).trans (w1_v3 m ρ c)
theorem w2_v10 : W2 (F := Ideal) m ρ c (Proc.devRef .tc main_v10) = kC m c :=
  (W2_of_ne m ρ c main_v10 (by decide)).trans (w1_v10 m ρ c)
theorem w2_arg2 : W2 (F := Ideal) m ρ c (Proc.devRef .tc main_arg2) = aW1l m c :=
  (W2_of_ne m ρ c main_arg2 (by decide)).trans (w1_arg2 m ρ c)
theorem w2_arg3 : W2 (F := Ideal) m ρ c (Proc.devRef .tc main_arg3) = aB1l m c :=
  (W2_of_ne m ρ c main_arg3 (by decide)).trans (w1_arg3 m ρ c)
theorem w2_arg4 : W2 (F := Ideal) m ρ c (Proc.devRef .tc main_arg4) = aW1r m c :=
  (W2_of_ne m ρ c main_arg4 (by decide)).trans (w1_arg4 m ρ c)
theorem w2_arg5 : W2 (F := Ideal) m ρ c (Proc.devRef .tc main_arg5) = aW2l m c :=
  (W2_of_ne m ρ c main_arg5 (by decide)).trans (w1_arg5 m ρ c)
theorem w2_arg6 : W2 (F := Ideal) m ρ c (Proc.devRef .tc main_arg6) = aB2l m c :=
  (W2_of_ne m ρ c main_arg6 (by decide)).trans (w1_arg6 m ρ c)
theorem w2_arg7 : W2 (F := Ideal) m ρ c (Proc.devRef .tc main_arg7) = aW2r m c :=
  (W2_of_ne m ρ c main_arg7 (by decide)).trans (w1_arg7 m ρ c)
theorem w2_arg8 : W2 (F := Ideal) m ρ c (Proc.devRef .tc main_arg8) = aW3l m c :=
  (W2_of_ne m ρ c main_arg8 (by decide)).trans (w1_arg8 m ρ c)
theorem w2_arg9 : W2 (F := Ideal) m ρ c (Proc.devRef .tc main_arg9) = aB3l m c :=
  (W2_of_ne m ρ c main_arg9 (by decide)).trans (w1_arg9 m ρ c)
theorem w2_arg10 : W2 (F := Ideal) m ρ c (Proc.devRef .tc main_arg10) = aW3r m c :=
  (W2_of_ne m ρ c main_arg10 (by decide)).trans (w1_arg10 m ρ c)
theorem w2_arg13 : W2 (F := Ideal) m ρ c (Proc.devRef .tc main_arg13) = aA m c :=
  (W2_of_ne m ρ c main_arg13 (by decide)).trans (w1_arg13 m ρ c)

/-! ## Before the second region -/

set_option maxHeartbeats 2000000 in
theorem w3_v24 : W3 (F := Ideal) m ρ c (Proc.devRef .tc main_v24) = meanOf (aX m c) (kS m c) (kD m c) (kC m c) := by
  show StableHlo.after hostOps1 (W2 (F := Ideal) m ρ c) (Proc.devRef .tc main_v24) = _
  after_results_simp
  simp only [w2_arg0 m ρ c, w2_v1 m ρ c, w2_v3 m ρ c, w2_v10 m ρ c]
  rfl
theorem w3_v25 : W3 (F := Ideal) m ρ c (Proc.devRef .tc main_v25) = (shapeCast S1x128 (aB1l m c) Facts₀.shapeCasts_S128_S1x128 : FVec Ideal S1x128 .f32) := by
  show StableHlo.after hostOps1 (W2 (F := Ideal) m ρ c) (Proc.devRef .tc main_v25) = _
  after_results
  simp only [w2_arg3 m ρ c]
  rfl
theorem w3_v26 : W3 (F := Ideal) m ρ c (Proc.devRef .tc main_v26) = (shapeCast S1x1 (aA m c) Facts₀.shapeCasts_S_S1x1 : FVec Ideal S1x1 .f32) := by
  show StableHlo.after hostOps1 (W2 (F := Ideal) m ρ c) (Proc.devRef .tc main_v26) = _
  after_results
  simp only [w2_arg13 m ρ c]
  rfl
theorem w3_arg0 : W3 (F := Ideal) m ρ c (Proc.devRef .tc main_arg0) = aX m c := by
  show StableHlo.after hostOps1 (W2 (F := Ideal) m ρ c) (Proc.devRef .tc main_arg0) = _
  after_results
  exact w2_arg0 m ρ c
theorem w3_arg2 : W3 (F := Ideal) m ρ c (Proc.devRef .tc main_arg2) = aW1l m c := by
  show StableHlo.after hostOps1 (W2 (F := Ideal) m ρ c) (Proc.devRef .tc main_arg2) = _
  after_results
  exact w2_arg2 m ρ c
theorem w3_arg4 : W3 (F := Ideal) m ρ c (Proc.devRef .tc main_arg4) = aW1r m c := by
  show StableHlo.after hostOps1 (W2 (F := Ideal) m ρ c) (Proc.devRef .tc main_arg4) = _
  after_results
  exact w2_arg4 m ρ c
theorem w3_arg5 : W3 (F := Ideal) m ρ c (Proc.devRef .tc main_arg5) = aW2l m c := by
  show StableHlo.after hostOps1 (W2 (F := Ideal) m ρ c) (Proc.devRef .tc main_arg5) = _
  after_results
  exact w2_arg5 m ρ c
theorem w3_arg6 : W3 (F := Ideal) m ρ c (Proc.devRef .tc main_arg6) = aB2l m c := by
  show StableHlo.after hostOps1 (W2 (F := Ideal) m ρ c) (Proc.devRef .tc main_arg6) = _
  after_results
  exact w2_arg6 m ρ c
theorem w3_arg7 : W3 (F := Ideal) m ρ c (Proc.devRef .tc main_arg7) = aW2r m c := by
  show StableHlo.after hostOps1 (W2 (F := Ideal) m ρ c) (Proc.devRef .tc main_arg7) = _
  after_results
  exact w2_arg7 m ρ c
theorem w3_arg8 : W3 (F := Ideal) m ρ c (Proc.devRef .tc main_arg8) = aW3l m c := by
  show StableHlo.after hostOps1 (W2 (F := Ideal) m ρ c) (Proc.devRef .tc main_arg8) = _
  after_results
  exact w2_arg8 m ρ c
theorem w3_arg9 : W3 (F := Ideal) m ρ c (Proc.devRef .tc main_arg9) = aB3l m c := by
  show StableHlo.after hostOps1 (W2 (F := Ideal) m ρ c) (Proc.devRef .tc main_arg9) = _
  after_results
  exact w2_arg9 m ρ c
theorem w3_arg10 : W3 (F := Ideal) m ρ c (Proc.devRef .tc main_arg10) = aW3r m c := by
  show StableHlo.after hostOps1 (W2 (F := Ideal) m ρ c) (Proc.devRef .tc main_arg10) = _
  after_results
  exact w2_arg10 m ρ c
theorem w3_arg13 : W3 (F := Ideal) m ρ c (Proc.devRef .tc main_arg13) = aA m c := by
  show StableHlo.after hostOps1 (W2 (F := Ideal) m ρ c) (Proc.devRef .tc main_arg13) = _
  after_results
  exact w2_arg13 m ρ c
theorem w3_v12 : W3 (F := Ideal) m ρ c (Proc.devRef .tc main_v12) = k0 m c := by
  show StableHlo.after hostOps1 (W2 (F := Ideal) m ρ c) (Proc.devRef .tc main_v12) = _
  after_results
  exact w2_v12 m ρ c
theorem w3_v1 : W3 (F := Ideal) m ρ c (Proc.devRef .tc main_v1) = kS m c := by
  show StableHlo.after hostOps1 (W2 (F := Ideal) m ρ c) (Proc.devRef .tc main_v1) = _
  after_results
  exact w2_v1 m ρ c
theorem w3_v3 : W3 (F := Ideal) m ρ c (Proc.devRef .tc main_v3) = kD m c := by
  show StableHlo.after hostOps1 (W2 (F := Ideal) m ρ c) (Proc.devRef .tc main_v3) = _
  after_results
  exact w2_v3 m ρ c
theorem w3_v10 : W3 (F := Ideal) m ρ c (Proc.devRef .tc main_v10) = kC m c := by
  show StableHlo.after hostOps1 (W2 (F := Ideal) m ρ c) (Proc.devRef .tc main_v10) = _
  after_results
  exact w2_v10 m ρ c

/-! ## After the second region (layer 1) -/

theorem w4_v27 : W4 (F := Ideal) m ρ c (Proc.devRef .tc main_v27) = lay m c (aX m c) (aW1l m c) (aB1l m c) (aW1r m c) := by
  refine (W4_arr m ρ c 6).trans ((Cert.KernelIdeal.Blocks.final1 (V3 (F := Ideal) m ρ) c).trans ?_)
  unfold Cert.KernelIdeal.Blocks.G1 lay rowB slope
  show Cert.Sage.layer1 (W3 (F := Ideal) m ρ c (Proc.devRef .tc main_v24)) (W3 (F := Ideal) m ρ c (Proc.devRef .tc main_arg0))
      (W3 (F := Ideal) m ρ c (Proc.devRef .tc main_arg2)) (W3 (F := Ideal) m ρ c (Proc.devRef .tc main_arg4))
      (fun q => (W3 (F := Ideal) m ρ c (Proc.devRef .tc main_v25) : S1x128.Idx → EReal) (ix2 (0 : Fin 1) q))
      ((W3 (F := Ideal) m ρ c (Proc.devRef .tc main_v26) : S1x1.Idx → EReal) (ix2 (0 : Fin 1) (0 : Fin 1))) = _
  rw [w3_v24, w3_arg0, w3_arg2, w3_arg4, w3_v25, w3_v26]
theorem w4_v12 : W4 (F := Ideal) m ρ c (Proc.devRef .tc main_v12) = k0 m c :=
  (W4_of_ne m ρ c main_v12 (by decide)).trans (w3_v12 m ρ c)
theorem w4_v1 : W4 (F := Ideal) m ρ c (Proc.devRef .tc main_v1) = kS m c :=
  (W4_of_ne m ρ c main_v1 (by decide)).trans (w3_v1 m ρ c)
theorem w4_v3 : W4 (F := Ideal) m ρ c (Proc.devRef .tc main_v3) = kD m c :=
  (W4_of_ne m ρ c main_v3 (by decide)).trans (w3_v3 m ρ c)
theorem w4_v10 : W4 (F := Ideal) m ρ c (Proc.devRef .tc main_v10) = kC m c :=
  (W4_of_ne m ρ c main_v10 (by decide)).trans (w3_v10 m ρ c)
theorem w4_arg5 : W4 (F := Ideal) m ρ c (Proc.devRef .tc main_arg5) = aW2l m c :=
  (W4_of_ne m ρ c main_arg5 (by decide)).trans (w3_arg5 m ρ c)
theorem w4_arg6 : W4 (F := Ideal) m ρ c (Proc.devRef .tc main_arg6) = aB2l m c :=
  (W4_of_ne m ρ c main_arg6 (by decide)).trans (w3_arg6 m ρ c)
theorem w4_arg7 : W4 (F := Ideal) m ρ c (Proc.devRef .tc main_arg7) = aW2r m c :=
  (W4_of_ne m ρ c main_arg7 (by decide)).trans (w3_arg7 m ρ c)
theorem w4_arg8 : W4 (F := Ideal) m ρ c (Proc.devRef .tc main_arg8) = aW3l m c :=
  (W4_of_ne m ρ c main_arg8 (by decide)).trans (w3_arg8 m ρ c)
theorem w4_arg9 : W4 (F := Ideal) m ρ c (Proc.devRef .tc main_arg9) = aB3l m c :=
  (W4_of_ne m ρ c main_arg9 (by decide)).trans (w3_arg9 m ρ c)
theorem w4_arg10 : W4 (F := Ideal) m ρ c (Proc.devRef .tc main_arg10) = aW3r m c :=
  (W4_of_ne m ρ c main_arg10 (by decide)).trans (w3_arg10 m ρ c)
theorem w4_arg13 : W4 (F := Ideal) m ρ c (Proc.devRef .tc main_arg13) = aA m c :=
  (W4_of_ne m ρ c main_arg13 (by decide)).trans (w3_arg13 m ρ c)

/-! ## Before the third region -/

theorem w5_v28 : W5 (F := Ideal) m ρ c (Proc.devRef .tc main_v28) = h1 m c := by
  show StableHlo.after hostOps2 (W4 (F := Ideal) m ρ c) (Proc.devRef .tc main_v28) = _
  after_results
  simp only [w4_v27 m ρ c, w4_v12 m ρ c]
  rfl
set_option maxHeartbeats 2000000 in
theorem w5_v40 : W5 (F := Ideal) m ρ c (Proc.devRef .tc main_v40) = meanOf (h1 m c) (kS m c) (kD m c) (kC m c) := by
  show StableHlo.after hostOps2 (W4 (F := Ideal) m ρ c) (Proc.devRef .tc main_v40) = _
  after_results_simp
  simp only [w4_v27 m ρ c, w4_v12 m ρ c, w4_v1 m ρ c, w4_v3 m ρ c, w4_v10 m ρ c]
  rfl
theorem w5_v41 : W5 (F := Ideal) m ρ c (Proc.devRef .tc main_v41) = (shapeCast S1x128 (aB2l m c) Facts₀.shapeCasts_S128_S1x128 : FVec Ideal S1x128 .f32) := by
  show StableHlo.after hostOps2 (W4 (F := Ideal) m ρ c) (Proc.devRef .tc main_v41) = _
  after_results
  simp only [w4_arg6 m ρ c]
  rfl
theorem w5_v42 : W5 (F := Ideal) m ρ c (Proc.devRef .tc main_v42) = (shapeCast S1x1 (aA m c) Facts₀.shapeCasts_S_S1x1 : FVec Ideal S1x1 .f32) := by
  show StableHlo.after hostOps2 (W4 (F := Ideal) m ρ c) (Proc.devRef .tc main_v42) = _
  after_results
  simp only [w4_arg13 m ρ c]
  rfl
theorem w5_arg5 : W5 (F := Ideal) m ρ c (Proc.devRef .tc main_arg5) = aW2l m c := by
  show StableHlo.after hostOps2 (W4 (F := Ideal) m ρ c) (Proc.devRef .tc main_arg5) = _
  after_results
  exact w4_arg5 m ρ c
theorem w5_arg7 : W5 (F := Ideal) m ρ c (Proc.devRef .tc main_arg7) = aW2r m c := by
  show StableHlo.after hostOps2 (W4 (F := Ideal) m ρ c) (Proc.devRef .tc main_arg7) = _
  after_results
  exact w4_arg7 m ρ c
theorem w5_arg8 : W5 (F := Ideal) m ρ c (Proc.devRef .tc main_arg8) = aW3l m c := by
  show StableHlo.after hostOps2 (W4 (F := Ideal) m ρ c) (Proc.devRef .tc main_arg8) = _
  after_results
  exact w4_arg8 m ρ c
theorem w5_arg9 : W5 (F := Ideal) m ρ c (Proc.devRef .tc main_arg9) = aB3l m c := by
  show StableHlo.after hostOps2 (W4 (F := Ideal) m ρ c) (Proc.devRef .tc main_arg9) = _
  after_results
  exact w4_arg9 m ρ c
theorem w5_arg10 : W5 (F := Ideal) m ρ c (Proc.devRef .tc main_arg10) = aW3r m c := by
  show StableHlo.after hostOps2 (W4 (F := Ideal) m ρ c) (Proc.devRef .tc main_arg10) = _
  after_results
  exact w4_arg10 m ρ c
theorem w5_arg13 : W5 (F := Ideal) m ρ c (Proc.devRef .tc main_arg13) = aA m c := by
  show StableHlo.after hostOps2 (W4 (F := Ideal) m ρ c) (Proc.devRef .tc main_arg13) = _
  after_results
  exact w4_arg13 m ρ c
theorem w5_v12 : W5 (F := Ideal) m ρ c (Proc.devRef .tc main_v12) = k0 m c := by
  show StableHlo.after hostOps2 (W4 (F := Ideal) m ρ c) (Proc.devRef .tc main_v12) = _
  after_results
  exact w4_v12 m ρ c
theorem w5_v1 : W5 (F := Ideal) m ρ c (Proc.devRef .tc main_v1) = kS m c := by
  show StableHlo.after hostOps2 (W4 (F := Ideal) m ρ c) (Proc.devRef .tc main_v1) = _
  after_results
  exact w4_v1 m ρ c
theorem w5_v3 : W5 (F := Ideal) m ρ c (Proc.devRef .tc main_v3) = kD m c := by
  show StableHlo.after hostOps2 (W4 (F := Ideal) m ρ c) (Proc.devRef .tc main_v3) = _
  after_results
  exact w4_v3 m ρ c
theorem w5_v10 : W5 (F := Ideal) m ρ c (Proc.devRef .tc main_v10) = kC m c := by
  show StableHlo.after hostOps2 (W4 (F := Ideal) m ρ c) (Proc.devRef .tc main_v10) = _
  after_results
  exact w4_v10 m ρ c

/-! ## After the third region (layer 2) -/

theorem w6_v43 : W6 (F := Ideal) m ρ c (Proc.devRef .tc main_v43) = lay m c (h1 m c) (aW2l m c) (aB2l m c) (aW2r m c) := by
  refine (W6_arr m ρ c 6).trans ((Cert.KernelIdeal.Blocks.final2 (V5 (F := Ideal) m ρ) c).trans ?_)
  unfold Cert.KernelIdeal.Blocks.G2 lay rowB slope
  show Cert.Sage.layer1 (W5 (F := Ideal) m ρ c (Proc.devRef .tc main_v40)) (W5 (F := Ideal) m ρ c (Proc.devRef .tc main_v28))
      (W5 (F := Ideal) m ρ c (Proc.devRef .tc main_arg5)) (W5 (F := Ideal) m ρ c (Proc.devRef .tc main_arg7))
      (fun q => (W5 (F := Ideal) m ρ c (Proc.devRef .tc main_v41) : S1x128.Idx → EReal) (ix2 (0 : Fin 1) q))
      ((W5 (F := Ideal) m ρ c (Proc.devRef .tc main_v42) : S1x1.Idx → EReal) (ix2 (0 : Fin 1) (0 : Fin 1))) = _
  rw [w5_v40, w5_v28, w5_arg5, w5_arg7, w5_v41, w5_v42]
theorem w6_v12 : W6 (F := Ideal) m ρ c (Proc.devRef .tc main_v12) = k0 m c :=
  (W6_of_ne m ρ c main_v12 (by decide)).trans (w5_v12 m ρ c)
theorem w6_v1 : W6 (F := Ideal) m ρ c (Proc.devRef .tc main_v1) = kS m c :=
  (W6_of_ne m ρ c main_v1 (by decide)).trans (w5_v1 m ρ c)
theorem w6_v3 : W6 (F := Ideal) m ρ c (Proc.devRef .tc main_v3) = kD m c :=
  (W6_of_ne m ρ c main_v3 (by decide)).trans (w5_v3 m ρ c)
theorem w6_v10 : W6 (F := Ideal) m ρ c (Proc.devRef .tc main_v10) = kC m c :=
  (W6_of_ne m ρ c main_v10 (by decide)).trans (w5_v10 m ρ c)
theorem w6_arg8 : W6 (F := Ideal) m ρ c (Proc.devRef .tc main_arg8) = aW3l m c :=
  (W6_of_ne m ρ c main_arg8 (by decide)).trans (w5_arg8 m ρ c)
theorem w6_arg9 : W6 (F := Ideal) m ρ c (Proc.devRef .tc main_arg9) = aB3l m c :=
  (W6_of_ne m ρ c main_arg9 (by decide)).trans (w5_arg9 m ρ c)
theorem w6_arg10 : W6 (F := Ideal) m ρ c (Proc.devRef .tc main_arg10) = aW3r m c :=
  (W6_of_ne m ρ c main_arg10 (by decide)).trans (w5_arg10 m ρ c)
theorem w6_arg13 : W6 (F := Ideal) m ρ c (Proc.devRef .tc main_arg13) = aA m c :=
  (W6_of_ne m ρ c main_arg13 (by decide)).trans (w5_arg13 m ρ c)

/-! ## Before the fourth region -/

theorem w7_v44 : W7 (F := Ideal) m ρ c (Proc.devRef .tc main_v44) = h2 m c := by
  show StableHlo.after hostOps3 (W6 (F := Ideal) m ρ c) (Proc.devRef .tc main_v44) = _
  after_results
  simp only [w6_v43 m ρ c, w6_v12 m ρ c]
  rfl
set_option maxHeartbeats 2000000 in
theorem w7_v56 : W7 (F := Ideal) m ρ c (Proc.devRef .tc main_v56) = meanOf (h2 m c) (kS m c) (kD m c) (kC m c) := by
  show StableHlo.after hostOps3 (W6 (F := Ideal) m ρ c) (Proc.devRef .tc main_v56) = _
  after_results_simp
  simp only [w6_v43 m ρ c, w6_v12 m ρ c, w6_v1 m ρ c, w6_v3 m ρ c, w6_v10 m ρ c]
  rfl
theorem w7_v57 : W7 (F := Ideal) m ρ c (Proc.devRef .tc main_v57) = (shapeCast S1x128 (aB3l m c) Facts₀.shapeCasts_S128_S1x128 : FVec Ideal S1x128 .f32) := by
  show StableHlo.after hostOps3 (W6 (F := Ideal) m ρ c) (Proc.devRef .tc main_v57) = _
  after_results
  simp only [w6_arg9 m ρ c]
  rfl
theorem w7_v58 : W7 (F := Ideal) m ρ c (Proc.devRef .tc main_v58) = (shapeCast S1x1 (aA m c) Facts₀.shapeCasts_S_S1x1 : FVec Ideal S1x1 .f32) := by
  show StableHlo.after hostOps3 (W6 (F := Ideal) m ρ c) (Proc.devRef .tc main_v58) = _
  after_results
  simp only [w6_arg13 m ρ c]
  rfl
theorem w7_arg8 : W7 (F := Ideal) m ρ c (Proc.devRef .tc main_arg8) = aW3l m c := by
  show StableHlo.after hostOps3 (W6 (F := Ideal) m ρ c) (Proc.devRef .tc main_arg8) = _
  after_results
  exact w6_arg8 m ρ c
theorem w7_arg10 : W7 (F := Ideal) m ρ c (Proc.devRef .tc main_arg10) = aW3r m c := by
  show StableHlo.after hostOps3 (W6 (F := Ideal) m ρ c) (Proc.devRef .tc main_arg10) = _
  after_results
  exact w6_arg10 m ρ c

/-! ## After the fourth region: the result -/

theorem w8_v59 : W8 (F := Ideal) m ρ c (Proc.devRef .tc main_v59) = kF m c := by
  refine (W8_arr m ρ c 6).trans ((Cert.KernelIdeal.Blocks.final3 (V7 (F := Ideal) m ρ) c).trans ?_)
  unfold Cert.KernelIdeal.Blocks.G3 kF rowB slope
  show Cert.Sage.layer2 (W7 (F := Ideal) m ρ c (Proc.devRef .tc main_v56)) (W7 (F := Ideal) m ρ c (Proc.devRef .tc main_v44))
      (W7 (F := Ideal) m ρ c (Proc.devRef .tc main_arg8)) (W7 (F := Ideal) m ρ c (Proc.devRef .tc main_arg10))
      (fun q => (W7 (F := Ideal) m ρ c (Proc.devRef .tc main_v57) : S1x128.Idx → EReal) (ix2 (0 : Fin 1) q))
      ((W7 (F := Ideal) m ρ c (Proc.devRef .tc main_v58) : S1x1.Idx → EReal) (ix2 (0 : Fin 1) (0 : Fin 1))) = _
  rw [w7_v56, w7_v44, w7_arg8, w7_arg10, w7_v57, w7_v58]

end Cert.KernelIdeal.Fold

end
-- ==== Proof.SageRef.lean ====
/-
  The reference's stages read at one index. A matrix product at (r, c) is the sum over k of the left operand at
  (r, k) times the right at (k, c); a bias row repeated down the rows is the bias at c; the row scaling divides by
  the bounded Euclidean length of row r; the leaky activation acts on each element. Put together, a layer of the
  reference is the specification's row function applied to every row, and the skip connection is the
  specification's skip row.
-/
import proofs.«128962_j16595753632514_1_alg».proof.Proof.SageRefDefs
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Cert.ReferenceIdeal.Facts Idealize.ShloMosaic Idealize.ShloMosaic.ValueIdx

/-! ## The pieces at one index -/

/-- The left operand's index of a matrix product keeps the result's row. -/
private theorem lhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

/-- Its column is the summation index. -/
private theorem lhs_col (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

/-- The right operand's row is the summation index. -/
private theorem rhs_row (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

/-- Its column is the result's column. -/
private theorem rhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A matrix product at row `r`, column `c`: the sum over `k` of the left operand at (r, k) times the right at (k, c). -/
private theorem dot_at (L : FVec Ideal S50000x128 .f32) (R : FVec Ideal S128x128 .f32) (r : Fin 50000) (c : Fin 128) :
    Host.dotGeneral (F := Ideal) dot_S50000x128_S128x128_S50000x128_1_0_0_1_n_n none L R (ValueIdx.ix2 r c)
      = ∑ k : Fin 128, L (ValueIdx.ix2 r k) * R (ValueIdx.ix2 k c) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 r c) ((ValueIdx.contrEquiv1 dot_S50000x128_S128x128_S50000x128_1_0_0_1_n_n 128 rfl rfl).symm k) = ValueIdx.ix2 r k := funext fun a => Fin.ext (by
    match a with
    | ⟨0, _⟩ => exact lhs_row _ _
    | ⟨1, _⟩ => exact (lhs_col _ _).trans hk)
  have er : dot_S50000x128_S128x128_S50000x128_1_0_0_1_n_n.rhsIdx (ValueIdx.ix2 r c) ((ValueIdx.contrEquiv1 dot_S50000x128_S128x128_S50000x128_1_0_0_1_n_n 128 rfl rfl).symm k) = ValueIdx.ix2 k c := funext fun a => Fin.ext (by
    match a with
    | ⟨0, _⟩ => exact (rhs_row _ _).trans hk
    | ⟨1, _⟩ => exact rhs_col _ _)
  rw [el, er]

/-- A bias row repeated down the rows, at (r, c): the bias at `c`. -/
private theorem bias_at (bl : FVec Ideal S128 .f32) (r : Fin 50000) (c : Fin 128) :
    broadcastInDim S50000x128 ![0, 1] bcast_S1x128_S50000x128_0_1 (broadcastInDim S1x128 ![1] bcast_S128_S1x128_1 bl) (ValueIdx.ix2 r c)
      = bl (ValueIdx.ix1 c) := by
  generalize hy : broadcastInDim S1x128 ![1] bcast_S128_S1x128_1 bl = y
  refine (broadcastInDim_apply _ bcast_S1x128_S50000x128_0_1 y (ValueIdx.ix2 r c) (ValueIdx.ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans ?_
  subst hy
  exact broadcastInDim_apply _ bcast_S128_S1x128_1 bl (ValueIdx.ix2 (0 : Fin 1) c) (ValueIdx.ix1 c) (fun a => match a with
    | ⟨0, _⟩ => by show c.val = if (128 : Nat) = 1 then 0 else c.val; rw [if_neg (by decide)])

/-- A scalar repeated over the whole array, at any index: the scalar. -/
private theorem scalar_at (s : FVec Ideal S_ .f32) (i : S50000x128.Idx) :
    broadcastInDim S50000x128 ![] bcast_S_S50000x128 s i = s ValueIdx.ix0 :=
  broadcastInDim_apply _ bcast_S_S50000x128 s i ValueIdx.ix0 (fun a => a.elim0)

/-- The sum of a row's squares, kept as a column, at row `r`. -/
private theorem sumsq_at (O : FVec Ideal S50000x128 .f32) (r : Fin 50000) :
    broadcastInDim S50000x1 ![0] bcast_S50000_S50000x1_0
        (Host.reduceAdd (F := Ideal) (mulf (F := Ideal) O O) (constant S_ .f32 0x00000000#32) reducesTo_S50000x128_S50000_d1 h_S_) (ValueIdx.ix2 r (0 : Fin 1))
      = ∑ k : Fin 128, O (ValueIdx.ix2 r k) * O (ValueIdx.ix2 r k) := by
  generalize hz : Host.reduceAdd (F := Ideal) (mulf (F := Ideal) O O) (constant S_ .f32 0x00000000#32) reducesTo_S50000x128_S50000_d1 h_S_ = z
  refine (broadcastInDim_apply _ bcast_S50000_S50000x1_0 z (ValueIdx.ix2 r (0 : Fin 1)) (ValueIdx.ix1 r) (fun a => match a with
    | ⟨0, _⟩ => by show r.val = if (50000 : Nat) = 1 then 0 else r.val; rw [if_neg (by decide)])).trans ?_
  subst hz
  generalize hy : mulf (F := Ideal) O O = y
  simp only [Host.reduceAdd, Ideal.hostReduceAdd_def]
  rw [Ideal.hostReduceAdd_single reducesTo_S50000x128_S50000_d1 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  subst hy
  exact congrArg (fun j => O j * O j) (funext fun a => Fin.ext (by match a with | ⟨0, _⟩ => rfl | ⟨1, _⟩ => rfl))

/-- The small constant repeated down a column, at any index: the constant. -/
private theorem floor_at (i : S50000x1.Idx) :
    broadcastInDim S50000x1 ![] bcast_S_S50000x1 (constant (F := Ideal) S_ .f32 0x2B8CBCCC#32) i = Ideal.ofBits .f32 0x2B8CBCCC#32 :=
  broadcastInDim_apply _ bcast_S_S50000x1 (constant (F := Ideal) S_ .f32 0x2B8CBCCC#32) i ValueIdx.ix0 (fun a => a.elim0)

/-- The bounded Euclidean length of row `r`, repeated along the row, at (r, c). -/
private theorem len_at (O : FVec Ideal S50000x128 .f32) (r : Fin 50000) (c : Fin 128) :
    broadcastInDim S50000x128 ![0, 1] bcast_S50000x1_S50000x128_0_1
        (maximumf (F := Ideal) (Host.sqrt (F := Ideal) (broadcastInDim S50000x1 ![0] bcast_S50000_S50000x1_0
            (Host.reduceAdd (F := Ideal) (mulf (F := Ideal) O O) (constant S_ .f32 0x00000000#32) reducesTo_S50000x128_S50000_d1 h_S_)))
          (broadcastInDim S50000x1 ![] bcast_S_S50000x1 (constant (F := Ideal) S_ .f32 0x2B8CBCCC#32))) (ValueIdx.ix2 r c)
      = Cert.Sage.len (fun k => O (ValueIdx.ix2 r k)) := by
  generalize hy : maximumf (F := Ideal) (Host.sqrt (F := Ideal) (broadcastInDim S50000x1 ![0] bcast_S50000_S50000x1_0
            (Host.reduceAdd (F := Ideal) (mulf (F := Ideal) O O) (constant S_ .f32 0x00000000#32) reducesTo_S50000x128_S50000_d1 h_S_)))
          (broadcastInDim S50000x1 ![] bcast_S_S50000x1 (constant (F := Ideal) S_ .f32 0x2B8CBCCC#32)) = y
  refine (broadcastInDim_apply _ bcast_S50000x1_S50000x128_0_1 y (ValueIdx.ix2 r c) (ValueIdx.ix2 r (0 : Fin 1)) (fun a => match a with
    | ⟨0, _⟩ => by show r.val = if (50000 : Nat) = 1 then 0 else r.val; rw [if_neg (by decide)]
    | ⟨1, _⟩ => by show 0 = if (1 : Nat) = 1 then 0 else c.val; rw [if_pos rfl])).trans ?_
  subst hy
  generalize hZ : broadcastInDim S50000x1 ![0] bcast_S50000_S50000x1_0
            (Host.reduceAdd (F := Ideal) (mulf (F := Ideal) O O) (constant S_ .f32 0x00000000#32) reducesTo_S50000x128_S50000_d1 h_S_) = Z
  generalize hE : broadcastInDim S50000x1 ![] bcast_S_S50000x1 (constant (F := Ideal) S_ .f32 0x2B8CBCCC#32) = E
  show max (Ideal.sqrt (Z (ValueIdx.ix2 r (0 : Fin 1)))) (E (ValueIdx.ix2 r (0 : Fin 1))) = _
  subst hZ hE
  rw [sumsq_at, floor_at]
  rfl

/-- The two linear maps and the bias at (r, c): the row function of rows `r` of the two operands. -/
private theorem denseOf_at (G X : FVec Ideal S50000x128 .f32) (Wl : FVec Ideal S128x128 .f32) (bl : FVec Ideal S128 .f32) (Wr : FVec Ideal S128x128 .f32) (r : Fin 50000) (c : Fin 128) :
    denseOf G X Wl bl Wr (ValueIdx.ix2 r c)
      = Cert.Sage.lin (Cert.Sage.rowOf G r) (Cert.Sage.rowOf X r) (Cert.Sage.mat Wl) (Cert.Sage.mat Wr) (fun c => bl (ValueIdx.ix1 c)) c := by
  unfold denseOf
  show Host.dotGeneral (F := Ideal) dot_S50000x128_S128x128_S50000x128_1_0_0_1_n_n none G Wl (ValueIdx.ix2 r c)
      + broadcastInDim S50000x128 ![0, 1] bcast_S1x128_S50000x128_0_1 (broadcastInDim S1x128 ![1] bcast_S128_S1x128_1 bl) (ValueIdx.ix2 r c)
      + Host.dotGeneral (F := Ideal) dot_S50000x128_S128x128_S50000x128_1_0_0_1_n_n none X Wr (ValueIdx.ix2 r c) = _
  rw [dot_at, dot_at, bias_at]
  rfl

/-- A row scaled to length one, at (r, c). -/
private theorem unitOf_at (O : FVec Ideal S50000x128 .f32) (r : Fin 50000) (c : Fin 128) :
    unitOf O (ValueIdx.ix2 r c) = Cert.Sage.unit (fun k => O (ValueIdx.ix2 r k)) c := by
  unfold unitOf Cert.Sage.unit
  generalize hB : broadcastInDim S50000x128 ![0, 1] bcast_S50000x1_S50000x128_0_1
        (maximumf (F := Ideal) (Host.sqrt (F := Ideal) (broadcastInDim S50000x1 ![0] bcast_S50000_S50000x1_0
            (Host.reduceAdd (F := Ideal) (mulf (F := Ideal) O O) (constant S_ .f32 0x00000000#32) reducesTo_S50000x128_S50000_d1 h_S_)))
          (broadcastInDim S50000x1 ![] bcast_S_S50000x1 (constant (F := Ideal) S_ .f32 0x2B8CBCCC#32))) = B
  show Ideal.div (O (ValueIdx.ix2 r c)) (B (ValueIdx.ix2 r c)) = Ideal.div (O (ValueIdx.ix2 r c)) (Cert.Sage.len (fun k => O (ValueIdx.ix2 r k)))
  subst hB
  rw [len_at]

/-- The leaky activation at any index. -/
private theorem preluOf_at (s : FVec Ideal S_ .f32) (Y : FVec Ideal S50000x128 .f32) (i : S50000x128.Idx) :
    preluOf s Y i = Cert.Sage.prelu (s ValueIdx.ix0) (Y i) := by
  unfold preluOf Cert.Sage.prelu
  show Scalar.select (Ideal.cmp .oge (Y i) (broadcastInDim S50000x128 ![] bcast_S_S50000x128 (constant (F := Ideal) S_ .f32 0x00000000#32) i)) (Y i)
      (broadcastInDim S50000x128 ![] bcast_S_S50000x128 s i * Y i) = _
  rw [scalar_at, scalar_at]
  rfl

/-- The skip connection is the specification's. -/
theorem skipOf_eq (X : A) (Ws : Wm) (bs : Bv) : skipOf X Ws bs = Cert.Sage.skip X Ws (fun c => bs (ValueIdx.ix1 c)) := by
  funext i
  obtain ⟨r, c, rfl⟩ : ∃ (r : Fin 50000) (c : Fin 128), i = ValueIdx.ix2 r c := ⟨i 0, i 1, ValueIdx.eq_ix2 i⟩
  unfold skipOf
  show Host.dotGeneral (F := Ideal) dot_S50000x128_S128x128_S50000x128_1_0_0_1_n_n none (X : FVec Ideal S50000x128 .f32) (Ws : FVec Ideal S128x128 .f32) (ValueIdx.ix2 r c)
      + broadcastInDim S50000x128 ![0, 1] bcast_S1x128_S50000x128_0_1 (broadcastInDim S1x128 ![1] bcast_S128_S1x128_1 (bs : FVec Ideal S128 .f32)) (ValueIdx.ix2 r c) = _
  rw [dot_at, bias_at]
  rfl

/-- A layer that activates once is the specification's. -/
theorem layer1_eq (G X : A) (Wl : Wm) (bl : Bv) (Wr : Wm) (s : Sc) :
    preluOf s (unitOf (denseOf G X Wl bl Wr)) = Cert.Sage.layer1 G X Wl Wr (fun c => bl (ValueIdx.ix1 c)) (s ValueIdx.ix0) := by
  funext i
  obtain ⟨r, c, rfl⟩ : ∃ (r : Fin 50000) (c : Fin 128), i = ValueIdx.ix2 r c := ⟨i 0, i 1, ValueIdx.eq_ix2 i⟩
  rw [preluOf_at, unitOf_at, show (fun k => denseOf G X Wl bl Wr (ValueIdx.ix2 r k)) = Cert.Sage.lin (Cert.Sage.rowOf G r) (Cert.Sage.rowOf X r) (Cert.Sage.mat Wl) (Cert.Sage.mat Wr) (fun c => bl (ValueIdx.ix1 c)) from funext fun k => denseOf_at G X Wl bl Wr r k]
  rfl

/-- The last layer, which activates twice, is the specification's. -/
theorem layer2_eq (G X : A) (Wl : Wm) (bl : Bv) (Wr : Wm) (s : Sc) :
    preluOf s (preluOf s (unitOf (denseOf G X Wl bl Wr))) = Cert.Sage.layer2 G X Wl Wr (fun c => bl (ValueIdx.ix1 c)) (s ValueIdx.ix0) := by
  funext i
  obtain ⟨r, c, rfl⟩ : ∃ (r : Fin 50000) (c : Fin 128), i = ValueIdx.ix2 r c := ⟨i 0, i 1, ValueIdx.eq_ix2 i⟩
  rw [preluOf_at, preluOf_at, unitOf_at, show (fun k => denseOf G X Wl bl Wr (ValueIdx.ix2 r k)) = Cert.Sage.lin (Cert.Sage.rowOf G r) (Cert.Sage.rowOf X r) (Cert.Sage.mat Wl) (Cert.Sage.mat Wr) (fun c => bl (ValueIdx.ix1 c)) from funext fun k => denseOf_at G X Wl bl Wr r k]
  rfl

end Cert.ReferenceIdeal.RefValue

end
-- ==== Proof.SageBridge.lean ====
/-
  The whole encoder written with the specification's layers: each layer of the reference is the specification's layer
  of the neighbour mean and the layer's input, the skip connection is the specification's; and two one-element
  facts about a scalar and a row given a leading unit axis.
-/
import proofs.«128962_j16595753632514_1_alg».proof.Proof.SageRef
import Idealize.ShloMosaic.Lib.ValueLayout

noncomputable section

namespace Cert.ReferenceIdeal.RefValue

open Cert.ReferenceIdeal Cert.ReferenceIdeal.Facts₀ Cert.ReferenceIdeal.Facts Idealize.ShloMosaic Idealize.ShloMosaic.ValueIdx

/-- The specification's skip connection of an array. -/
def sk (x : A) (Ws : Wm) (bs : Bv) : A := Cert.Sage.skip x Ws (fun c => bs (ValueIdx.ix1 c))

/-- The specification's once-activated layer of an array and its neighbour mean. -/
def ly (X : A) (s d : Iv) (Wl : Wm) (bl : Bv) (Wr : Wm) (a : Sc) : A :=
  Cert.Sage.layer1 (aggOf X s d) X Wl Wr (fun c => bl (ValueIdx.ix1 c)) (a ValueIdx.ix0)

/-- The specification's twice-activated layer of an array and its neighbour mean. -/
def ly2 (X : A) (s d : Iv) (Wl : Wm) (bl : Bv) (Wr : Wm) (a : Sc) : A :=
  Cert.Sage.layer2 (aggOf X s d) X Wl Wr (fun c => bl (ValueIdx.ix1 c)) (a ValueIdx.ix0)

/-- The encoder is the specification's three layers, the skip connection added after the first and the second. -/
theorem finalOf_eq (x : A) (E : Ed) (W1l : Wm) (b1l : Bv) (W1r W2l : Wm) (b2l : Bv) (W2r W3l : Wm) (b3l : Bv) (W3r Ws : Wm) (bs : Bv) (a : Sc) :
    finalOf x E W1l b1l W1r W2l b2l W2r W3l b3l W3r Ws bs a
      = ly2 (sumOf (ly (sumOf (ly x (srcOf E) (dstOf E) W1l b1l W1r a) (sk x Ws bs)) (srcOf E) (dstOf E) W2l b2l W2r a) (sk x Ws bs))
          (srcOf E) (dstOf E) W3l b3l W3r a := by
  unfold finalOf layerOf sk ly ly2
  rw [layer2_eq, layer1_eq, layer1_eq, skipOf_eq]

/-- A scalar given two unit axes keeps its one element. -/
theorem slope_eq {α : Type} (a : (⟨0, ![]⟩ : Shape).Idx → α) (h : (⟨0, ![]⟩ : Shape).ShapeCasts ⟨2, ![1, 1]⟩) :
    shapeCast ⟨2, ![1, 1]⟩ a h (ValueIdx.ix2 (0 : Fin 1) (0 : Fin 1)) = a ValueIdx.ix0 :=
  shapeCast_apply a h _ _ (by
    have h0 : ((⟨0, ![]⟩ : Shape).rowMajor ValueIdx.ix0).val < 1 := ((⟨0, ![]⟩ : Shape).rowMajor ValueIdx.ix0).isLt
    rw [Shape.rowMajor_val_two]
    show ((⟨0, ![]⟩ : Shape).rowMajor ValueIdx.ix0).val = 0 * 1 + 0
    omega)

/-- A row given a leading unit axis keeps its elements. -/
theorem biasrow_eq {α : Type} (b : (⟨1, ![128]⟩ : Shape).Idx → α) (h : (⟨1, ![128]⟩ : Shape).ShapeCasts ⟨2, ![1, 128]⟩) (q : Fin 128) :
    shapeCast ⟨2, ![1, 128]⟩ b h (ValueIdx.ix2 (0 : Fin 1) q) = b (ValueIdx.ix1 q) :=
  ValueIdx.shapeCast_a_1a_apply b h (0 : Fin 1) q

end Cert.ReferenceIdeal.RefValue

end
-- ==== Proof.SageRefRun.lean ====
/-
  The reference program run, with its result named.

  The reference is a straight line of 163 whole-array operations, and its result is the fold of the operations
  over the launch contents. Written out as one term of the fourteen arguments the result repeats every shared
  value at each of its uses (the three layers nest, and each layer reads its input several times), so the fold is
  taken in stretches instead, each over an arbitrary valuation:
    * stretch 0 reads the two rows of the edge array (the source and the destination of every edge) and forms
      the skip connection;
    * each layer is four stretches: the mean of the neighbour rows, the two matrix products with the bias, the
      scaling of every row to unit length, the leaky activation (followed by the addition of the skip connection
      after layers 1 and 2, and by the activation once more after layer 3).
  For an arbitrary valuation every buffer a stretch reads from outside itself is an atom, so the value a stretch
  leaves in its last buffer is one stage function of the definitions module applied to atoms. A buffer a stretch
  does not write keeps its contents. The fold over a concatenation is the composition of the folds: the stretches
  of a layer chain to the layer function, and the layers chain to the whole encoder applied to the launch contents
  of the arguments.
-/
import proofs.«128962_j16595753632514_1_alg».proof.Proof.RefRunP
import proofs.«128962_j16595753632514_1_alg».proof.Proof.SageRefDefs

noncomputable section

namespace Cert.ReferenceIdeal.RefValue

open Cert.ReferenceIdeal Idealize.ShloMosaic Idealize.ShloMosaic.TcCoe Idealize.SL.Sem Idealize.ShloMosaic.StableHlo

/-! ## The operations, in stretches

The operations of the program, in order, as thirteen lists: the same lines in the same order. Stretch 0 reads the
edge array and forms the skip connection; each layer is four lists — the neighbour mean, the two matrix products
with the bias, the scaling of the rows, the activation (with what follows it). -/

section Tables

open Cert.ReferenceIdeal.Gen

variable {F : FTy → Type} [FloatOps F]

/-- Operations 0–7: the two rows of the edge array and the skip connection. -/
def seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg11 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)) ]

/-- Operations 8–34: layer 1's mean of the neighbour rows. -/
def agg1 : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_arg0 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v18 ((extractStridedSlice S800000x1 ![0, 0] · slices_S800000x128_S800000x1_0_0) : (⟨S800000x128, .f32⟩ : BufTy).Contents (Elt F) → (⟨S800000x1, .f32⟩ : BufTy).Contents (Elt F)),
    reshape main_v18 main_v19 rfl shapeCasts_S800000x1_S800000,
    nullary main_cst_1 (constant S_ .f32 0x3F800000#32),
    unary main_cst_1 main_v20 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v3 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (maximumf : (⟨S50000, .f32⟩ : BufTy).Contents (Elt F) → (⟨S50000, .f32⟩ : BufTy).Contents (Elt F) → (⟨S50000, .f32⟩ : BufTy).Contents (Elt F)),
    unary main_v25 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v17 main_v27 main_v28 (Host.divf : (⟨S50000x128, .f32⟩ : BufTy).Contents (Elt F) → (⟨S50000x128, .f32⟩ : BufTy).Contents (Elt F) → (⟨S50000x128, .f32⟩ : BufTy).Contents (Elt F)) ]

/-- Operations 35–40: layer 1's two matrix products and the bias. -/
def dense1 : List (HloOp τ sig (Elt F)) :=
  [ binary main_v28 main_arg2 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    binary main_arg0 main_arg4 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v32 main_v33 main_v34 (addf : (⟨S50000x128, .f32⟩ : BufTy).Contents (Elt F) → (⟨S50000x128, .f32⟩ : BufTy).Contents (Elt F) → (⟨S50000x128, .f32⟩ : BufTy).Contents (Elt F)) ]

/-- Operations 41–50: layer 1's scaling of every row to unit length. -/
def unit1 : List (HloOp τ sig (Elt F)) :=
  [ TRef.binary (TRef.of (T := ⟨S50000x128, .f32⟩) main_v34) (TRef.of (T := ⟨S50000x128, .f32⟩) main_v34) (TRef.of (T := ⟨S50000x128, .f32⟩) main_call0_v0) mulf,
    TRef.nullary (TRef.of (T := ⟨S_, .f32⟩) main_call0_cst) (constant S_ .f32 0x00000000#32),
    TRef.binary (TRef.of (T := ⟨S50000x128, .f32⟩) main_call0_v0) (TRef.of (T := ⟨S_, .f32⟩) main_call0_cst) (TRef.of (T := ⟨S50000, .f32⟩) main_call0_v1) (fun x v => Host.reduceAdd x v reducesTo_S50000x128_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v35) Host.sqrt,
    nullary main_cst_4 (constant S_ .f32 0x2B8CBCCC#32),
    unary main_cst_4 main_v36 (broadcastInDim S50000x1 ![] bcast_S_S50000x1 : (⟨S_, .f32⟩ : BufTy).Contents (Elt F) → (⟨S50000x1, .f32⟩ : BufTy).Contents (Elt F)),
    binary main_v35 main_v36 main_v37 (maximumf : (⟨S50000x1, .f32⟩ : BufTy).Contents (Elt F) → (⟨S50000x1, .f32⟩ : BufTy).Contents (Elt F) → (⟨S50000x1, .f32⟩ : BufTy).Contents (Elt F)),
    unary main_v37 main_v38 (broadcastInDim S50000x128 ![0, 1] bcast_S50000x1_S50000x128_0_1 : (⟨S50000x1, .f32⟩ : BufTy).Contents (Elt F) → (⟨S50000x128, .f32⟩ : BufTy).Contents (Elt F)),
    binary main_v34 main_v38 main_v39 (Host.divf : (⟨S50000x128, .f32⟩ : BufTy).Contents (Elt F) → (⟨S50000x128, .f32⟩ : BufTy).Contents (Elt F) → (⟨S50000x128, .f32⟩ : BufTy).Contents (Elt F)) ]

/-- Operations 51–57: layer 1's activation and the addition of the skip connection. -/
def act1 : List (HloOp τ sig (Elt F)) :=
  [ nullary main_cst_5 (constant S_ .f32 0x00000000#32),
    unary main_cst_5 main_v40 (broadcastInDim S50000x128 ![] bcast_S_S50000x128 : (⟨S_, .f32⟩ : BufTy).Contents (Elt F) → (⟨S50000x128, .f32⟩ : BufTy).Contents (Elt F)),
    binary main_v39 main_v40 main_v41 (cmpf .oge : (⟨S50000x128, .f32⟩ : BufTy).Contents (Elt F) → (⟨S50000x128, .f32⟩ : BufTy).Contents (Elt F) → (⟨S50000x128, .i1⟩ : BufTy).Contents (Elt F)),
    unary main_arg13 main_v42 (broadcastInDim S50000x128 ![] bcast_S_S50000x128 : (⟨S_, .f32⟩ : BufTy).Contents (Elt F) → (⟨S50000x128, .f32⟩ : BufTy).Contents (Elt F)),
    binary main_v42 main_v39 main_v43 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v41) (TRef.of (T := ⟨S50000x128, .f32⟩) main_v39) (TRef.of (T := ⟨S50000x128, .f32⟩) main_v43) (TRef.of (T := ⟨S50000x128, .f32⟩) main_v44) select,
    binary main_v44 main_v7 main_v45 (addf : (⟨S50000x128, .f32⟩ : BufTy).Contents (Elt F) → (⟨S50000x128, .f32⟩ : BufTy).Contents (Elt F) → (⟨S50000x128, .f32⟩ : BufTy).Contents (Elt F)) ]

/-- Operations 58–84: layer 2's mean of the neighbour rows. -/
def agg2 : List (HloOp τ sig (Elt F)) :=
  [ nullary main_c_6 (constantI S_ 32 0#32),
    unary main_c_6 main_v46 (broadcastInDim S800000 ![] bcast_S_S800000 : (⟨S_, .i32⟩ : BufTy).Contents (Elt F) → (⟨S800000, .i32⟩ : BufTy).Contents (Elt F)),
    binary main_v1 main_v46 main_v47 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v48 (broadcastInDim S800000 ![] bcast_S_S800000 : (⟨S_, .i32⟩ : BufTy).Contents (Elt F) → (⟨S800000, .i32⟩ : BufTy).Contents (Elt F)),
    binary main_v1 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_v1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    binary main_v45 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v53 (broadcastInDim S50000x128 ![] bcast_S_S50000x128 : (⟨S_, .f32⟩ : BufTy).Contents (Elt F) → (⟨S50000x128, .f32⟩ : BufTy).Contents (Elt F)),
    unary main_v3 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v52 main_v56 ((extractStridedSlice S800000x1 ![0, 0] · slices_S800000x128_S800000x1_0_0) : (⟨S800000x128, .f32⟩ : BufTy).Contents (Elt F) → (⟨S800000x1, .f32⟩ : BufTy).Contents (Elt F)),
    reshape main_v56 main_v57 rfl shapeCasts_S800000x1_S800000,
    nullary main_cst_9 (constant S_ .f32 0x3F800000#32),
    unary main_cst_9 main_v58 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v59 (broadcastInDim S50000 ![] bcast_S_S50000 : (⟨S_, .f32⟩ : BufTy).Contents (Elt F) → (⟨S50000, .f32⟩ : BufTy).Contents (Elt F)),
    unary main_v3 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v62 (broadcastInDim S50000 ![] bcast_S_S50000 : (⟨S_, .f32⟩ : BufTy).Contents (Elt F) → (⟨S50000, .f32⟩ : BufTy).Contents (Elt F)),
    binary main_v61 main_v62 main_v63 (maximumf : (⟨S50000, .f32⟩ : BufTy).Contents (Elt F) → (⟨S50000, .f32⟩ : BufTy).Contents (Elt F) → (⟨S50000, .f32⟩ : BufTy).Contents (Elt F)),
    unary main_v63 main_v64 (broadcastInDim S50000x1 ![0] bcast_S50000_S50000x1_0 : (⟨S50000, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v55 main_v65 main_v66 (Host.divf : (⟨S50000x128, .f32⟩ : BufTy).Contents (Elt F) → (⟨S50000x128, .f32⟩ : BufTy).Contents (Elt F) → (⟨S50000x128, .f32⟩ : BufTy).Contents (Elt F)) ]

/-- Operations 85–90: layer 2's two matrix products and the bias. -/
def dense2 : List (HloOp τ sig (Elt F)) :=
  [ binary main_v66 main_arg5 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    binary main_v45 main_arg7 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v70 main_v71 main_v72 (addf : (⟨S50000x128, .f32⟩ : BufTy).Contents (Elt F) → (⟨S50000x128, .f32⟩ : BufTy).Contents (Elt F) → (⟨S50000x128, .f32⟩ : BufTy).Contents (Elt F)) ]

/-- Operations 91–100: layer 2's scaling of every row to unit length. -/
def unit2 : List (HloOp τ sig (Elt F)) :=
  [ TRef.binary (TRef.of (T := ⟨S50000x128, .f32⟩) main_v72) (TRef.of (T := ⟨S50000x128, .f32⟩) main_v72) (TRef.of (T := ⟨S50000x128, .f32⟩) main_call2_v0) mulf,
    TRef.nullary (TRef.of (T := ⟨S_, .f32⟩) main_call2_cst) (constant S_ .f32 0x00000000#32),
    TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v73) Host.sqrt,
    nullary main_cst_12 (constant S_ .f32 0x2B8CBCCC#32),
    unary main_cst_12 main_v74 (broadcastInDim S50000x1 ![] bcast_S_S50000x1 : (⟨S_, .f32⟩ : BufTy).Contents (Elt F) → (⟨S50000x1, .f32⟩ : BufTy).Contents (Elt F)),
    binary main_v73 main_v74 main_v75 (maximumf : (⟨S50000x1, .f32⟩ : BufTy).Contents (Elt F) → (⟨S50000x1, .f32⟩ : BufTy).Contents (Elt F) → (⟨S50000x1, .f32⟩ : BufTy).Contents (Elt F)),
    unary main_v75 main_v76 (broadcastInDim S50000x128 ![0, 1] bcast_S50000x1_S50000x128_0_1 : (⟨S50000x1, .f32⟩ : BufTy).Contents (Elt F) → (⟨S50000x128, .f32⟩ : BufTy).Contents (Elt F)),
    binary main_v72 main_v76 main_v77 (Host.divf : (⟨S50000x128, .f32⟩ : BufTy).Contents (Elt F) → (⟨S50000x128, .f32⟩ : BufTy).Contents (Elt F) → (⟨S50000x128, .f32⟩ : BufTy).Contents (Elt F)) ]

/-- Operations 101–107: layer 2's activation and the addition of the skip connection. -/
def act2 : List (HloOp τ sig (Elt F)) :=
  [ nullary main_cst_13 (constant S_ .f32 0x00000000#32),
    unary main_cst_13 main_v78 (broadcastInDim S50000x128 ![] bcast_S_S50000x128 : (⟨S_, .f32⟩ : BufTy).Contents (Elt F) → (⟨S50000x128, .f32⟩ : BufTy).Contents (Elt F)),
    binary main_v77 main_v78 main_v79 (cmpf .oge : (⟨S50000x128, .f32⟩ : BufTy).Contents (Elt F) → (⟨S50000x128, .f32⟩ : BufTy).Contents (Elt F) → (⟨S50000x128, .i1⟩ : BufTy).Contents (Elt F)),
    unary main_arg13 main_v80 (broadcastInDim S50000x128 ![] bcast_S_S50000x128 : (⟨S_, .f32⟩ : BufTy).Contents (Elt F) → (⟨S50000x128, .f32⟩ : BufTy).Contents (Elt F)),
    binary main_v80 main_v77 main_v81 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v79) (TRef.of (T := ⟨S50000x128, .f32⟩) main_v77) (TRef.of (T := ⟨S50000x128, .f32⟩) main_v81) (TRef.of (T := ⟨S50000x128, .f32⟩) main_v82) select,
    binary main_v82 main_v7 main_v83 (addf : (⟨S50000x128, .f32⟩ : BufTy).Contents (Elt F) → (⟨S50000x128, .f32⟩ : BufTy).Contents (Elt F) → (⟨S50000x128, .f32⟩ : BufTy).Contents (Elt F)) ]

/-- Operations 108–134: layer 3's mean of the neighbour rows. -/
def agg3 : List (HloOp τ sig (Elt F)) :=
  [ nullary main_c_14 (constantI S_ 32 0#32),
    unary main_c_14 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_16 (constant S_ .f32 0x00000000#32),
    unary main_cst_16 main_v91 (broadcastInDim S50000x128 ![] bcast_S_S50000x128 : (⟨S_, .f32⟩ : BufTy).Contents (Elt F) → (⟨S50000x128, .f32⟩ : BufTy).Contents (Elt F)),
    unary main_v3 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v90 main_v94 ((extractStridedSlice S800000x1 ![0, 0] · slices_S800000x128_S800000x1_0_0) : (⟨S800000x128, .f32⟩ : BufTy).Contents (Elt F) → (⟨S800000x1, .f32⟩ : BufTy).Contents (Elt F)),
    reshape main_v94 main_v95 rfl shapeCasts_S800000x1_S800000,
    nullary main_cst_17 (constant S_ .f32 0x3F800000#32),
    unary main_cst_17 main_v96 (broadcastInDim S800000 ![] bcast_S_S800000 : (⟨S_, .f32⟩ : BufTy).Contents (Elt F) → (⟨S800000, .f32⟩ : BufTy).Contents (Elt F)),
    nullary main_cst_18 (constant S_ .f32 0x00000000#32),
    unary main_cst_18 main_v97 (broadcastInDim S50000 ![] bcast_S_S50000 : (⟨S_, .f32⟩ : BufTy).Contents (Elt F) → (⟨S50000, .f32⟩ : BufTy).Contents (Elt F)),
    unary main_v3 main_v98 (broadcastInDim S800000x1 ![0] bcast_S800000_S800000x1_0 : (⟨S800000, .i32⟩ : BufTy).Contents (Elt F) → (⟨S800000x1, .i32⟩ : BufTy).Contents (Elt F)),
    ternary main_v97 main_v98 main_v96 main_v99 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_19 (constant S_ .f32 0x3F800000#32),
    unary main_cst_19 main_v100 (broadcastInDim S50000 ![] bcast_S_S50000 : (⟨S_, .f32⟩ : BufTy).Contents (Elt F) → (⟨S50000, .f32⟩ : BufTy).Contents (Elt F)),
    binary main_v99 main_v100 main_v101 (maximumf : (⟨S50000, .f32⟩ : BufTy).Contents (Elt F) → (⟨S50000, .f32⟩ : BufTy).Contents (Elt F) → (⟨S50000, .f32⟩ : BufTy).Contents (Elt F)),
    unary main_v101 main_v102 (broadcastInDim S50000x1 ![0] bcast_S50000_S50000x1_0 : (⟨S50000, .f32⟩ : BufTy).Contents (Elt F) → (⟨S50000x1, .f32⟩ : BufTy).Contents (Elt F)),
    unary main_v102 main_v103 (broadcastInDim S50000x128 ![0, 1] bcast_S50000x1_S50000x128_0_1 : (⟨S50000x1, .f32⟩ : BufTy).Contents (Elt F) → (⟨S50000x128, .f32⟩ : BufTy).Contents (Elt F)),
    binary main_v93 main_v103 main_v104 (Host.divf : (⟨S50000x128, .f32⟩ : BufTy).Contents (Elt F) → (⟨S50000x128, .f32⟩ : BufTy).Contents (Elt F) → (⟨S50000x128, .f32⟩ : BufTy).Contents (Elt F)) ]

/-- Operations 135–140: layer 3's two matrix products and the bias. -/
def dense3 : List (HloOp τ sig (Elt F)) :=
  [ binary main_v104 main_arg8 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)),
    binary main_v83 main_arg10 main_v109 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v108 main_v109 main_v110 (addf : (⟨S50000x128, .f32⟩ : BufTy).Contents (Elt F) → (⟨S50000x128, .f32⟩ : BufTy).Contents (Elt F) → (⟨S50000x128, .f32⟩ : BufTy).Contents (Elt F)) ]

/-- Operations 141–150: layer 3's scaling of every row to unit length. -/
def unit3 : List (HloOp τ sig (Elt F)) :=
  [ TRef.binary (TRef.of (T := ⟨S50000x128, .f32⟩) main_v110) (TRef.of (T := ⟨S50000x128, .f32⟩) main_v110) (TRef.of (T := ⟨S50000x128, .f32⟩) main_call4_v0) mulf,
    TRef.nullary (TRef.of (T := ⟨S_, .f32⟩) main_call4_cst) (constant S_ .f32 0x00000000#32),
    TRef.binary (TRef.of (T := ⟨S50000x128, .f32⟩) main_call4_v0) (TRef.of (T := ⟨S_, .f32⟩) main_call4_cst) (TRef.of (T := ⟨S50000, .f32⟩) main_call4_v1) (fun x v => Host.reduceAdd x v reducesTo_S50000x128_S50000_d1 h_S_),
    TRef.unary (TRef.of (T := ⟨S50000, .f32⟩) main_call4_v1) (TRef.of (T := ⟨S50000x1, .f32⟩) main_call4_v2) (broadcastInDim S50000x1 ![0] bcast_S50000_S50000x1_0),
    TRef.unary (TRef.of (T := ⟨S50000x1, .f32⟩) main_call4_v2) (TRef.of (T := ⟨S50000x1, .f32⟩) main_v111) Host.sqrt,
    nullary main_cst_20 (constant S_ .f32 0x2B8CBCCC#32),
    unary main_cst_20 main_v112 (broadcastInDim S50000x1 ![] bcast_S_S50000x1 : (⟨S_, .f32⟩ : BufTy).Contents (Elt F) → (⟨S50000x1, .f32⟩ : BufTy).Contents (Elt F)),
    binary main_v111 main_v112 main_v113 (maximumf : (⟨S50000x1, .f32⟩ : BufTy).Contents (Elt F) → (⟨S50000x1, .f32⟩ : BufTy).Contents (Elt F) → (⟨S50000x1, .f32⟩ : BufTy).Contents (Elt F)),
    unary main_v113 main_v114 (broadcastInDim S50000x128 ![0, 1] bcast_S50000x1_S50000x128_0_1 : (⟨S50000x1, .f32⟩ : BufTy).Contents (Elt F) → (⟨S50000x128, .f32⟩ : BufTy).Contents (Elt F)),
    binary main_v110 main_v114 main_v115 (Host.divf : (⟨S50000x128, .f32⟩ : BufTy).Contents (Elt F) → (⟨S50000x128, .f32⟩ : BufTy).Contents (Elt F) → (⟨S50000x128, .f32⟩ : BufTy).Contents (Elt F)) ]

/-- Operations 151–162: layer 3's activation, and the activation once more. -/
def act3 : List (HloOp τ sig (Elt F)) :=
  [ nullary main_cst_21 (constant S_ .f32 0x00000000#32),
    unary main_cst_21 main_v116 (broadcastInDim S50000x128 ![] bcast_S_S50000x128 : (⟨S_, .f32⟩ : BufTy).Contents (Elt F) → (⟨S50000x128, .f32⟩ : BufTy).Contents (Elt F)),
    binary main_v115 main_v116 main_v117 (cmpf .oge : (⟨S50000x128, .f32⟩ : BufTy).Contents (Elt F) → (⟨S50000x128, .f32⟩ : BufTy).Contents (Elt F) → (⟨S50000x128, .i1⟩ : BufTy).Contents (Elt F)),
    unary main_arg13 main_v118 (broadcastInDim S50000x128 ![] bcast_S_S50000x128 : (⟨S_, .f32⟩ : BufTy).Contents (Elt F) → (⟨S50000x128, .f32⟩ : BufTy).Contents (Elt F)),
    binary main_v118 main_v115 main_v119 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v117) (TRef.of (T := ⟨S50000x128, .f32⟩) main_v115) (TRef.of (T := ⟨S50000x128, .f32⟩) main_v119) (TRef.of (T := ⟨S50000x128, .f32⟩) main_v120) select,
    nullary main_cst_22 (constant S_ .f32 0x00000000#32),
    unary main_cst_22 main_v121 (broadcastInDim S50000x128 ![] bcast_S_S50000x128 : (⟨S_, .f32⟩ : BufTy).Contents (Elt F) → (⟨S50000x128, .f32⟩ : BufTy).Contents (Elt F)),
    binary main_v120 main_v121 main_v122 (cmpf .oge : (⟨S50000x128, .f32⟩ : BufTy).Contents (Elt F) → (⟨S50000x128, .f32⟩ : BufTy).Contents (Elt F) → (⟨S50000x128, .i1⟩ : BufTy).Contents (Elt F)),
    unary main_arg13 main_v123 (broadcastInDim S50000x128 ![] bcast_S_S50000x128 : (⟨S_, .f32⟩ : BufTy).Contents (Elt F) → (⟨S50000x128, .f32⟩ : BufTy).Contents (Elt F)),
    binary main_v123 main_v120 main_v124 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v122) (TRef.of (T := ⟨S50000x128, .f32⟩) main_v120) (TRef.of (T := ⟨S50000x128, .f32⟩) main_v124) (TRef.of (T := ⟨S50000x128, .f32⟩) main_v125) select ]

/-- Layer 1's operations and the addition of the skip connection: operations 8–57. -/
def seg1 : List (HloOp τ sig (Elt F)) := agg1 ++ dense1 ++ unit1 ++ act1

/-- Layer 2's operations and the addition of the skip connection: operations 58–107. -/
def seg2 : List (HloOp τ sig (Elt F)) := agg2 ++ dense2 ++ unit2 ++ act2

/-- Layer 3's operations and the second activation: operations 108–162. -/
def seg3 : List (HloOp τ sig (Elt F)) := agg3 ++ dense3 ++ unit3 ++ act3

/-- The program's operations are stretch 0 and the three layers, one after the other. -/
theorem ops_eq : ValueP.ops (F := F) = seg0 ++ seg1 ++ seg2 ++ seg3 := rfl

end Tables

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## What a list leaves alone

Each list writes the buffers of its own operations' results and no other: a buffer outside that set keeps its
contents through the list. -/

/-- The buffers `seg0` writes. -/
abbrev seg0_W : List (Ref sig .tc) := [main_v0, main_v1, main_v2, main_v3, main_v4, main_v5, main_v6, main_v7]

theorem seg0_writes {F : FTy → Type} [FloatOps F] :
    (seg0 : List (HloOp τ sig (Elt F))).Forall fun op => op.writes ⊆ (seg0_W.map (Proc.devRef (τ := τ) .tc)).toFinset := by
  unfold seg0
  simp only [List.Forall, nullary_writes, unary_writes, binary_writes, ternary_writes, reshape_writes, Finset.singleton_subset_iff, List.mem_toFinset]
  repeat' apply And.intro
  all_goals exact List.mem_map_of_mem (by decide)

theorem seg0_keep {F : FTy → Type} [FloatOps F] (V : Valuation τ sig (Elt F)) (r : Ref sig .tc) (h : r ∉ seg0_W) :
    after seg0 V (Proc.devRef .tc r) = V (Proc.devRef .tc r) :=
  after_of_writes_sub seg0 V seg0_writes h

/-- The buffers `agg1` writes. -/
abbrev agg1_W : List (Ref sig .tc) := [main_c, main_v8, main_v9, main_c_0, main_v10, main_v11, main_v12, main_v13, main_v14, main_cst, main_v15, main_v16, main_v17, main_v18, main_v19, main_cst_1, main_v20, main_cst_2, main_v21, main_v22, main_v23, main_cst_3, main_v24, main_v25, main_v26, main_v27, main_v28]

theorem agg1_writes {F : FTy → Type} [FloatOps F] :
    (agg1 : List (HloOp τ sig (Elt F))).Forall fun op => op.writes ⊆ (agg1_W.map (Proc.devRef (τ := τ) .tc)).toFinset := by
  unfold agg1
  simp only [List.Forall, nullary_writes, unary_writes, binary_writes, ternary_writes, reshape_writes, Finset.singleton_subset_iff, List.mem_toFinset]
  repeat' apply And.intro
  all_goals exact List.mem_map_of_mem (by decide)

theorem agg1_keep {F : FTy → Type} [FloatOps F] (V : Valuation τ sig (Elt F)) (r : Ref sig .tc) (h : r ∉ agg1_W) :
    after agg1 V (Proc.devRef .tc r) = V (Proc.devRef .tc r) :=
  after_of_writes_sub agg1 V agg1_writes h

/-- The buffers `dense1` writes. -/
abbrev dense1_W : List (Ref sig .tc) := [main_v29, main_v30, main_v31, main_v32, main_v33, main_v34]

theorem dense1_writes {F : FTy → Type} [FloatOps F] :
    (dense1 : List (HloOp τ sig (Elt F))).Forall fun op => op.writes ⊆ (dense1_W.map (Proc.devRef (τ := τ) .tc)).toFinset := by
  unfold dense1
  simp only [List.Forall, nullary_writes, unary_writes, binary_writes, ternary_writes, reshape_writes, Finset.singleton_subset_iff, List.mem_toFinset]
  repeat' apply And.intro
  all_goals exact List.mem_map_of_mem (by decide)

theorem dense1_keep {F : FTy → Type} [FloatOps F] (V : Valuation τ sig (Elt F)) (r : Ref sig .tc) (h : r ∉ dense1_W) :
    after dense1 V (Proc.devRef .tc r) = V (Proc.devRef .tc r) :=
  after_of_writes_sub dense1 V dense1_writes h

/-- The buffers `unit1` writes. -/
abbrev unit1_W : List (Ref sig .tc) := [main_call0_v0, main_call0_cst, main_call0_v1, main_call0_v2, main_v35, main_cst_4, main_v36, main_v37, main_v38, main_v39]

theorem unit1_writes {F : FTy → Type} [FloatOps F] :
    (unit1 : List (HloOp τ sig (Elt F))).Forall fun op => op.writes ⊆ (unit1_W.map (Proc.devRef (τ := τ) .tc)).toFinset := by
  unfold unit1
  simp only [List.Forall, nullary_writes, unary_writes, binary_writes, ternary_writes, reshape_writes, Finset.singleton_subset_iff, List.mem_toFinset]
  repeat' apply And.intro
  all_goals exact List.mem_map_of_mem (by decide)

theorem unit1_keep {F : FTy → Type} [FloatOps F] (V : Valuation τ sig (Elt F)) (r : Ref sig .tc) (h : r ∉ unit1_W) :
    after unit1 V (Proc.devRef .tc r) = V (Proc.devRef .tc r) :=
  after_of_writes_sub unit1 V unit1_writes h

/-- The buffers `act1` writes. -/
abbrev act1_W : List (Ref sig .tc) := [main_cst_5, main_v40, main_v41, main_v42, main_v43, main_v44, main_v45]

theorem act1_writes {F : FTy → Type} [FloatOps F] :
    (act1 : List (HloOp τ sig (Elt F))).Forall fun op => op.writes ⊆ (act1_W.map (Proc.devRef (τ := τ) .tc)).toFinset := by
  unfold act1
  simp only [List.Forall, nullary_writes, unary_writes, binary_writes, ternary_writes, reshape_writes, Finset.singleton_subset_iff, List.mem_toFinset]
  repeat' apply And.intro
  all_goals exact List.mem_map_of_mem (by decide)

theorem act1_keep {F : FTy → Type} [FloatOps F] (V : Valuation τ sig (Elt F)) (r : Ref sig .tc) (h : r ∉ act1_W) :
    after act1 V (Proc.devRef .tc r) = V (Proc.devRef .tc r) :=
  after_of_writes_sub act1 V act1_writes h

/-- The buffers `agg2` writes. -/
abbrev agg2_W : List (Ref sig .tc) := [main_c_6, main_v46, main_v47, main_c_7, main_v48, main_v49, main_v50, main_v51, main_v52, main_cst_8, main_v53, main_v54, main_v55, main_v56, main_v57, main_cst_9, main_v58, main_cst_10, main_v59, main_v60, main_v61, main_cst_11, main_v62, main_v63, main_v64, main_v65, main_v66]

theorem agg2_writes {F : FTy → Type} [FloatOps F] :
    (agg2 : List (HloOp τ sig (Elt F))).Forall fun op => op.writes ⊆ (agg2_W.map (Proc.devRef (τ := τ) .tc)).toFinset := by
  unfold agg2
  simp only [List.Forall, nullary_writes, unary_writes, binary_writes, ternary_writes, reshape_writes, Finset.singleton_subset_iff, List.mem_toFinset]
  repeat' apply And.intro
  all_goals exact List.mem_map_of_mem (by decide)

theorem agg2_keep {F : FTy → Type} [FloatOps F] (V : Valuation τ sig (Elt F)) (r : Ref sig .tc) (h : r ∉ agg2_W) :
    after agg2 V (Proc.devRef .tc r) = V (Proc.devRef .tc r) :=
  after_of_writes_sub agg2 V agg2_writes h

/-- The buffers `dense2` writes. -/
abbrev dense2_W : List (Ref sig .tc) := [main_v67, main_v68, main_v69, main_v70, main_v71, main_v72]

theorem dense2_writes {F : FTy → Type} [FloatOps F] :
    (dense2 : List (HloOp τ sig (Elt F))).Forall fun op => op.writes ⊆ (dense2_W.map (Proc.devRef (τ := τ) .tc)).toFinset := by
  unfold dense2
  simp only [List.Forall, nullary_writes, unary_writes, binary_writes, ternary_writes, reshape_writes, Finset.singleton_subset_iff, List.mem_toFinset]
  repeat' apply And.intro
  all_goals exact List.mem_map_of_mem (by decide)

theorem dense2_keep {F : FTy → Type} [FloatOps F] (V : Valuation τ sig (Elt F)) (r : Ref sig .tc) (h : r ∉ dense2_W) :
    after dense2 V (Proc.devRef .tc r) = V (Proc.devRef .tc r) :=
  after_of_writes_sub dense2 V dense2_writes h

/-- The buffers `unit2` writes. -/
abbrev unit2_W : List (Ref sig .tc) := [main_call2_v0, main_call2_cst, main_call2_v1, main_call2_v2, main_v73, main_cst_12, main_v74, main_v75, main_v76, main_v77]

theorem unit2_writes {F : FTy → Type} [FloatOps F] :
    (unit2 : List (HloOp τ sig (Elt F))).Forall fun op => op.writes ⊆ (unit2_W.map (Proc.devRef (τ := τ) .tc)).toFinset := by
  unfold unit2
  simp only [List.Forall, nullary_writes, unary_writes, binary_writes, ternary_writes, reshape_writes, Finset.singleton_subset_iff, List.mem_toFinset]
  repeat' apply And.intro
  all_goals exact List.mem_map_of_mem (by decide)

theorem unit2_keep {F : FTy → Type} [FloatOps F] (V : Valuation τ sig (Elt F)) (r : Ref sig .tc) (h : r ∉ unit2_W) :
    after unit2 V (Proc.devRef .tc r) = V (Proc.devRef .tc r) :=
  after_of_writes_sub unit2 V unit2_writes h

/-- The buffers `act2` writes. -/
abbrev act2_W : List (Ref sig .tc) := [main_cst_13, main_v78, main_v79, main_v80, main_v81, main_v82, main_v83]

theorem act2_writes {F : FTy → Type} [FloatOps F] :
    (act2 : List (HloOp τ sig (Elt F))).Forall fun op => op.writes ⊆ (act2_W.map (Proc.devRef (τ := τ) .tc)).toFinset := by
  unfold act2
  simp only [List.Forall, nullary_writes, unary_writes, binary_writes, ternary_writes, reshape_writes, Finset.singleton_subset_iff, List.mem_toFinset]
  repeat' apply And.intro
  all_goals exact List.mem_map_of_mem (by decide)

theorem act2_keep {F : FTy → Type} [FloatOps F] (V : Valuation τ sig (Elt F)) (r : Ref sig .tc) (h : r ∉ act2_W) :
    after act2 V (Proc.devRef .tc r) = V (Proc.devRef .tc r) :=
  after_of_writes_sub act2 V act2_writes h

/-- The buffers `agg3` writes. -/
abbrev agg3_W : List (Ref sig .tc) := [main_c_14, main_v84, main_v85, main_c_15, main_v86, main_v87, main_v88, main_v89, main_v90, main_cst_16, main_v91, main_v92, main_v93, main_v94, main_v95, main_cst_17, main_v96, main_cst_18, main_v97, main_v98, main_v99, main_cst_19, main_v100, main_v101, main_v102, main_v103, main_v104]

theorem agg3_writes {F : FTy → Type} [FloatOps F] :
    (agg3 : List (HloOp τ sig (Elt F))).Forall fun op => op.writes ⊆ (agg3_W.map (Proc.devRef (τ := τ) .tc)).toFinset := by
  unfold agg3
  simp only [List.Forall, nullary_writes, unary_writes, binary_writes, ternary_writes, reshape_writes, Finset.singleton_subset_iff, List.mem_toFinset]
  repeat' apply And.intro
  all_goals exact List.mem_map_of_mem (by decide)

theorem agg3_keep {F : FTy → Type} [FloatOps F] (V : Valuation τ sig (Elt F)) (r : Ref sig .tc) (h : r ∉ agg3_W) :
    after agg3 V (Proc.devRef .tc r) = V (Proc.devRef .tc r) :=
  after_of_writes_sub agg3 V agg3_writes h

/-- The buffers `dense3` writes. -/
abbrev dense3_W : List (Ref sig .tc) := [main_v105, main_v106, main_v107, main_v108, main_v109, main_v110]

theorem dense3_writes {F : FTy → Type} [FloatOps F] :
    (dense3 : List (HloOp τ sig (Elt F))).Forall fun op => op.writes ⊆ (dense3_W.map (Proc.devRef (τ := τ) .tc)).toFinset := by
  unfold dense3
  simp only [List.Forall, nullary_writes, unary_writes, binary_writes, ternary_writes, reshape_writes, Finset.singleton_subset_iff, List.mem_toFinset]
  repeat' apply And.intro
  all_goals exact List.mem_map_of_mem (by decide)

theorem dense3_keep {F : FTy → Type} [FloatOps F] (V : Valuation τ sig (Elt F)) (r : Ref sig .tc) (h : r ∉ dense3_W) :
    after dense3 V (Proc.devRef .tc r) = V (Proc.devRef .tc r) :=
  after_of_writes_sub dense3 V dense3_writes h

/-- The buffers `unit3` writes. -/
abbrev unit3_W : List (Ref sig .tc) := [main_call4_v0, main_call4_cst, main_call4_v1, main_call4_v2, main_v111, main_cst_20, main_v112, main_v113, main_v114, main_v115]

theorem unit3_writes {F : FTy → Type} [FloatOps F] :
    (unit3 : List (HloOp τ sig (Elt F))).Forall fun op => op.writes ⊆ (unit3_W.map (Proc.devRef (τ := τ) .tc)).toFinset := by
  unfold unit3
  simp only [List.Forall, nullary_writes, unary_writes, binary_writes, ternary_writes, reshape_writes, Finset.singleton_subset_iff, List.mem_toFinset]
  repeat' apply And.intro
  all_goals exact List.mem_map_of_mem (by decide)

theorem unit3_keep {F : FTy → Type} [FloatOps F] (V : Valuation τ sig (Elt F)) (r : Ref sig .tc) (h : r ∉ unit3_W) :
    after unit3 V (Proc.devRef .tc r) = V (Proc.devRef .tc r) :=
  after_of_writes_sub unit3 V unit3_writes h

/-- The buffers `act3` writes. -/
abbrev act3_W : List (Ref sig .tc) := [main_cst_21, main_v116, main_v117, main_v118, main_v119, main_v120, main_cst_22, main_v121, main_v122, main_v123, main_v124, main_v125]

theorem act3_writes {F : FTy → Type} [FloatOps F] :
    (act3 : List (HloOp τ sig (Elt F))).Forall fun op => op.writes ⊆ (act3_W.map (Proc.devRef (τ := τ) .tc)).toFinset := by
  unfold act3
  simp only [List.Forall, nullary_writes, unary_writes, binary_writes, ternary_writes, reshape_writes, Finset.singleton_subset_iff, List.mem_toFinset]
  repeat' apply And.intro
  all_goals exact List.mem_map_of_mem (by decide)

theorem act3_keep {F : FTy → Type} [FloatOps F] (V : Valuation τ sig (Elt F)) (r : Ref sig .tc) (h : r ∉ act3_W) :
    after act3 V (Proc.devRef .tc r) = V (Proc.devRef .tc r) :=
  after_of_writes_sub act3 V act3_writes h

/-- The buffers layer 1's operations write. -/
abbrev seg1_W : List (Ref sig .tc) := agg1_W ++ dense1_W ++ unit1_W ++ act1_W

theorem seg1_keep {F : FTy → Type} [FloatOps F] (V : Valuation τ sig (Elt F)) (r : Ref sig .tc) (h : r ∉ seg1_W) :
    after seg1 V (Proc.devRef .tc r) = V (Proc.devRef .tc r) := by
  simp only [List.mem_append, not_or] at h
  rw [seg1, after_append, after_append, after_append, act1_keep _ r h.2, unit1_keep _ r h.1.2, dense1_keep _ r h.1.1.2,
    agg1_keep _ r h.1.1.1]

/-- The buffers layer 2's operations write. -/
abbrev seg2_W : List (Ref sig .tc) := agg2_W ++ dense2_W ++ unit2_W ++ act2_W

theorem seg2_keep {F : FTy → Type} [FloatOps F] (V : Valuation τ sig (Elt F)) (r : Ref sig .tc) (h : r ∉ seg2_W) :
    after seg2 V (Proc.devRef .tc r) = V (Proc.devRef .tc r) := by
  simp only [List.mem_append, not_or] at h
  rw [seg2, after_append, after_append, after_append, act2_keep _ r h.2, unit2_keep _ r h.1.2, dense2_keep _ r h.1.1.2,
    agg2_keep _ r h.1.1.1]

/-- The buffers layer 3's operations write. -/
abbrev seg3_W : List (Ref sig .tc) := agg3_W ++ dense3_W ++ unit3_W ++ act3_W

theorem seg3_keep {F : FTy → Type} [FloatOps F] (V : Valuation τ sig (Elt F)) (r : Ref sig .tc) (h : r ∉ seg3_W) :
    after seg3 V (Proc.devRef .tc r) = V (Proc.devRef .tc r) := by
  simp only [List.mem_append, not_or] at h
  rw [seg3, after_append, after_append, after_append, act3_keep _ r h.2, unit3_keep _ r h.1.2, dense3_keep _ r h.1.1.2,
    agg3_keep _ r h.1.1.1]

/-- A buffer none of the program's operations writes keeps its contents through the program. -/
theorem ops_keep {F : FTy → Type} [FloatOps F] (V : Valuation τ sig (Elt F)) (r : Ref sig .tc)
    (h₀ : r ∉ seg0_W) (h₁ : r ∉ seg1_W) (h₂ : r ∉ seg2_W) (h₃ : r ∉ seg3_W) :
    after (ValueP.ops (F := F)) V (Proc.devRef .tc r) = V (Proc.devRef .tc r) := by
  rw [ops_eq, after_append, after_append, after_append, seg3_keep _ r h₃, seg2_keep _ r h₂, seg1_keep _ r h₁, seg0_keep _ r h₀]

/-! ## What each list computes, over an arbitrary valuation

For an arbitrary valuation `V` the buffers a list reads from outside itself are atoms, so what the list leaves in
its last buffer is one stage function applied to atoms. -/

section Stretches

variable (V : Valuation τ sig (Elt Ideal))

/-- `seg0` leaves the source of every edge in `main_v1`. -/
theorem seg0_v1 : after (seg0 (F := Ideal)) V (Proc.devRef .tc main_v1)
    = srcOf (V (Proc.devRef .tc main_arg1)) := by
  unfold seg0
  after_results_simp
  unfold srcOf
  rfl

/-- `seg0` leaves the destination of every edge in `main_v3`. -/
theorem seg0_v3 : after (seg0 (F := Ideal)) V (Proc.devRef .tc main_v3)
    = dstOf (V (Proc.devRef .tc main_arg1)) := by
  unfold seg0
  after_results_simp
  unfold dstOf
  rfl

/-- `seg0` leaves the skip connection in `main_v7`. -/
theorem seg0_v7 : after (seg0 (F := Ideal)) V (Proc.devRef .tc main_v7)
    = skipOf (V (Proc.devRef .tc main_arg0)) (V (Proc.devRef .tc main_arg11)) (V (Proc.devRef .tc main_arg12)) := by
  unfold seg0
  after_results_simp
  unfold skipOf
  rfl

/-- `agg1` leaves the mean of each node's neighbour rows in `main_v28`. -/
theorem agg1_v28 : after (agg1 (F := Ideal)) V (Proc.devRef .tc main_v28)
    = aggOf (V (Proc.devRef .tc main_arg0)) (V (Proc.devRef .tc main_v1)) (V (Proc.devRef .tc main_v3)) := by
  unfold agg1
  after_results_simp
  unfold aggOf meanOf degCol degOf wrapOf
  rfl

/-- `dense1` leaves the two matrix products with the bias in `main_v34`. -/
theorem dense1_v34 : after (dense1 (F := Ideal)) V (Proc.devRef .tc main_v34)
    = denseOf (V (Proc.devRef .tc main_v28)) (V (Proc.devRef .tc main_arg0)) (V (Proc.devRef .tc main_arg2)) (V (Proc.devRef .tc main_arg3)) (V (Proc.devRef .tc main_arg4)) := by
  unfold dense1
  after_results_simp
  unfold denseOf
  rfl

/-- `unit1` leaves every row divided by its length in `main_v39`. -/
theorem unit1_v39 : after (unit1 (F := Ideal)) V (Proc.devRef .tc main_v39)
    = unitOf (V (Proc.devRef .tc main_v34)) := by
  unfold unit1
  after_results_simp
  unfold unitOf
  rfl

/-- `act1` leaves the activated rows plus the skip connection in `main_v45`. -/
theorem act1_v45 : after (act1 (F := Ideal)) V (Proc.devRef .tc main_v45)
    = sumOf (preluOf (V (Proc.devRef .tc main_arg13)) (V (Proc.devRef .tc main_v39))) (V (Proc.devRef .tc main_v7)) := by
  unfold act1
  after_results_simp
  unfold sumOf preluOf
  rfl

/-- `agg2` leaves the mean of each node's neighbour rows in `main_v66`. -/
theorem agg2_v66 : after (agg2 (F := Ideal)) V (Proc.devRef .tc main_v66)
    = aggOf (V (Proc.devRef .tc main_v45)) (V (Proc.devRef .tc main_v1)) (V (Proc.devRef .tc main_v3)) := by
  unfold agg2
  after_results_simp
  unfold aggOf meanOf degCol degOf wrapOf
  rfl

/-- `dense2` leaves the two matrix products with the bias in `main_v72`. -/
theorem dense2_v72 : after (dense2 (F := Ideal)) V (Proc.devRef .tc main_v72)
    = denseOf (V (Proc.devRef .tc main_v66)) (V (Proc.devRef .tc main_v45)) (V (Proc.devRef .tc main_arg5)) (V (Proc.devRef .tc main_arg6)) (V (Proc.devRef .tc main_arg7)) := by
  unfold dense2
  after_results_simp
  unfold denseOf
  rfl

/-- `unit2` leaves every row divided by its length in `main_v77`. -/
theorem unit2_v77 : after (unit2 (F := Ideal)) V (Proc.devRef .tc main_v77)
    = unitOf (V (Proc.devRef .tc main_v72)) := by
  unfold unit2
  after_results_simp
  unfold unitOf
  rfl

/-- `act2` leaves the activated rows plus the skip connection in `main_v83`. -/
theorem act2_v83 : after (act2 (F := Ideal)) V (Proc.devRef .tc main_v83)
    = sumOf (preluOf (V (Proc.devRef .tc main_arg13)) (V (Proc.devRef .tc main_v77))) (V (Proc.devRef .tc main_v7)) := by
  unfold act2
  after_results_simp
  unfold sumOf preluOf
  rfl

/-- `agg3` leaves the mean of each node's neighbour rows in `main_v104`. -/
theorem agg3_v104 : after (agg3 (F := Ideal)) V (Proc.devRef .tc main_v104)
    = aggOf (V (Proc.devRef .tc main_v83)) (V (Proc.devRef .tc main_v1)) (V (Proc.devRef .tc main_v3)) := by
  unfold agg3
  after_results_simp
  unfold aggOf meanOf degCol degOf wrapOf
  rfl

/-- `dense3` leaves the two matrix products with the bias in `main_v110`. -/
theorem dense3_v110 : after (dense3 (F := Ideal)) V (Proc.devRef .tc main_v110)
    = denseOf (V (Proc.devRef .tc main_v104)) (V (Proc.devRef .tc main_v83)) (V (Proc.devRef .tc main_arg8)) (V (Proc.devRef .tc main_arg9)) (V (Proc.devRef .tc main_arg10)) := by
  unfold dense3
  after_results_simp
  unfold denseOf
  rfl

/-- `unit3` leaves every row divided by its length in `main_v115`. -/
theorem unit3_v115 : after (unit3 (F := Ideal)) V (Proc.devRef .tc main_v115)
    = unitOf (V (Proc.devRef .tc main_v110)) := by
  unfold unit3
  after_results_simp
  unfold unitOf
  rfl

/-- `act3` leaves the rows activated twice in `main_v125`. -/
theorem act3_v125 : after (act3 (F := Ideal)) V (Proc.devRef .tc main_v125)
    = preluOf (V (Proc.devRef .tc main_arg13)) (preluOf (V (Proc.devRef .tc main_arg13)) (V (Proc.devRef .tc main_v115))) := by
  unfold act3
  after_results_simp
  unfold preluOf
  rfl

/-! ## The layers -/

/-- Layer 1's operations leave layer 1 of the encoder plus the skip connection in `main_v45`. -/
theorem seg1_v45 : after (seg1 (F := Ideal)) V (Proc.devRef .tc main_v45)
    = sumOf (layerOf (V (Proc.devRef .tc main_arg0)) (V (Proc.devRef .tc main_v1)) (V (Proc.devRef .tc main_v3)) (V (Proc.devRef .tc main_arg2)) (V (Proc.devRef .tc main_arg3)) (V (Proc.devRef .tc main_arg4)) (V (Proc.devRef .tc main_arg13))) (V (Proc.devRef .tc main_v7)) := by
  unfold seg1
  simp only [after_append]
  rw [act1_v45, unit1_keep _ main_arg13 (by decide), unit1_v39, unit1_keep _ main_v7 (by decide),
    dense1_keep _ main_arg13 (by decide), dense1_v34, dense1_keep _ main_v7 (by decide),
    agg1_keep _ main_arg13 (by decide), agg1_keep _ main_arg0 (by decide), agg1_keep _ main_arg2 (by decide),
    agg1_keep _ main_arg3 (by decide), agg1_keep _ main_arg4 (by decide), agg1_v28,
    agg1_keep _ main_v7 (by decide)]
  rfl

/-- Layer 2's operations leave layer 2 of the encoder plus the skip connection in `main_v83`. -/
theorem seg2_v83 : after (seg2 (F := Ideal)) V (Proc.devRef .tc main_v83)
    = sumOf (layerOf (V (Proc.devRef .tc main_v45)) (V (Proc.devRef .tc main_v1)) (V (Proc.devRef .tc main_v3)) (V (Proc.devRef .tc main_arg5)) (V (Proc.devRef .tc main_arg6)) (V (Proc.devRef .tc main_arg7)) (V (Proc.devRef .tc main_arg13))) (V (Proc.devRef .tc main_v7)) := by
  unfold seg2
  simp only [after_append]
  rw [act2_v83, unit2_keep _ main_arg13 (by decide), unit2_keep _ main_v7 (by decide), unit2_v77,
    dense2_keep _ main_arg13 (by decide), dense2_keep _ main_v7 (by decide), dense2_v72,
    agg2_keep _ main_arg13 (by decide), agg2_keep _ main_v7 (by decide), agg2_keep _ main_arg5 (by decide),
    agg2_keep _ main_arg6 (by decide), agg2_keep _ main_arg7 (by decide), agg2_keep _ main_v45 (by decide),
    agg2_v66]
  rfl

/-- Layer 3's operations leave layer 3 of the encoder, activated once more, in `main_v125`. -/
theorem seg3_v125 : after (seg3 (F := Ideal)) V (Proc.devRef .tc main_v125)
    = preluOf (V (Proc.devRef .tc main_arg13)) (layerOf (V (Proc.devRef .tc main_v83)) (V (Proc.devRef .tc main_v1)) (V (Proc.devRef .tc main_v3)) (V (Proc.devRef .tc main_arg8)) (V (Proc.devRef .tc main_arg9)) (V (Proc.devRef .tc main_arg10)) (V (Proc.devRef .tc main_arg13))) := by
  unfold seg3
  simp only [after_append]
  rw [act3_v125, unit3_keep _ main_arg13 (by decide), unit3_v115, dense3_keep _ main_arg13 (by decide),
    dense3_v110, agg3_keep _ main_arg13 (by decide), agg3_keep _ main_arg10 (by decide),
    agg3_keep _ main_arg8 (by decide), agg3_keep _ main_arg9 (by decide), agg3_v104,
    agg3_keep _ main_v83 (by decide)]
  rfl

end Stretches

/-! ## The whole program -/

/-- The program's result buffer ends at the encoder applied to the launch contents of the fourteen arguments. -/
theorem result_eq (m : (ℓ : Loc nD τ sig) → Buf (Elt Ideal) ℓ) (c : Dev nD) :
    after (ValueP.ops (F := Ideal)) (launchContents m c) (Proc.devRef .tc main_v125)
      = finalOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [ops_eq]
  simp only [after_append]
  rw [seg3_v125, seg2_keep _ main_v3 (by decide), seg2_v83, seg2_keep _ main_v1 (by decide),
    seg2_keep _ main_arg8 (by decide), seg2_keep _ main_arg9 (by decide), seg2_keep _ main_arg10 (by decide),
    seg2_keep _ main_arg13 (by decide), seg1_keep _ main_v3 (by decide), seg1_v45,
    seg1_keep _ main_v1 (by decide), seg1_keep _ main_arg5 (by decide), seg1_keep _ main_arg6 (by decide),
    seg1_keep _ main_arg7 (by decide), seg1_keep _ main_arg13 (by decide), seg1_keep _ main_v7 (by decide),
    seg1_keep _ main_arg8 (by decide), seg1_keep _ main_arg9 (by decide), seg1_keep _ main_arg10 (by decide),
    seg0_v3, seg0_keep _ main_arg0 (by decide), seg0_v1, seg0_keep _ main_arg2 (by decide),
    seg0_keep _ main_arg3 (by decide), seg0_keep _ main_arg4 (by decide), seg0_keep _ main_arg13 (by decide),
    seg0_v7, seg0_keep _ main_arg5 (by decide), seg0_keep _ main_arg6 (by decide),
    seg0_keep _ main_arg7 (by decide), seg0_keep _ main_arg8 (by decide), seg0_keep _ main_arg9 (by decide),
    seg0_keep _ main_arg10 (by decide)]
  rfl

/-- On every device, from any memory with zero counters: every weakly fair execution of the program terminates
    with the result buffer at the encoder of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v125)
          = finalOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v125).trans (result_eq m c),
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide)),
      (h c main_arg10).trans (ops_keep _ main_arg10 (by decide) (by decide) (by decide) (by decide)),
      (h c main_arg11).trans (ops_keep _ main_arg11 (by decide) (by decide) (by decide) (by decide)),
      (h c main_arg12).trans (ops_keep _ main_arg12 (by decide) (by decide) (by decide) (by decide)),
      (h c main_arg13).trans (ops_keep _ main_arg13 (by decide) (by decide) (by decide) (by decide))⟩)
    (run_seq ValueP.scopedRefs_eq ValueP.scopedSems_eq defs main (fun _ => ValueP.ops) ValueP.main_eq (fun _ => ValueP.ops_sub) m ρ)

end Cert.ReferenceIdeal.RefValue

end
-- ==== Proof.lean ====
/-
  The certificate of a three-layer graph encoder: the kernel program (four grid regions — the skip connection
  and three dense layers — among host gathers, segment sums and divisions) against its host reference.

  Over the extended reals both programs compute, layer by layer, the same function of the fourteen arguments:
  the neighbour mean `(Σ_{e : dst e = i} X[src e]) / max(deg i, 1)` is the same host operations on both sides; a
  layer's dense part is, row by row, `lin = a·Wl + bl + x·Wr`, scaled to Euclidean length one (bounded below by a
  shared constant) and passed through the leaky activation. The kernel computes it block of 5000 rows by block,
  with the matrix products into zero accumulators and a lane reduction for the row length; the reference with one
  `dot_general` per product and a host reduction. Neither side's value needs the inputs to be finite: the two
  sides are the same sums in the same order, so the precondition is only carried.

  The three frames: the two kernel programs' are the generated frame proofs; the reference's is its run with the
  result dropped. The idealization rewrote nothing, so `preserves` is trivial.
-/
import proofs.«128962_j16595753632514_1_alg».proof.Defs
import proofs.«128962_j16595753632514_1_alg».proof.Proof.Gen.Kernel
import proofs.«128962_j16595753632514_1_alg».proof.Proof.Gen.Kernel.Skeleton
import proofs.«128962_j16595753632514_1_alg».proof.Proof.Gen.Kernel.Launch
import proofs.«128962_j16595753632514_1_alg».proof.Proof.Gen.Kernel.Points
import proofs.«128962_j16595753632514_1_alg».proof.Proof.Gen.Kernel.Frame
import proofs.«128962_j16595753632514_1_alg».proof.Proof.Gen.KernelIdeal
import proofs.«128962_j16595753632514_1_alg».proof.Proof.Gen.KernelIdeal.Skeleton
import proofs.«128962_j16595753632514_1_alg».proof.Proof.Gen.KernelIdeal.Launch
import proofs.«128962_j16595753632514_1_alg».proof.Proof.Gen.KernelIdeal.Points
import proofs.«128962_j16595753632514_1_alg».proof.Proof.Gen.KernelIdeal.Frame
import proofs.«128962_j16595753632514_1_alg».proof.Proof.Gen.ReferenceIdeal
import proofs.«128962_j16595753632514_1_alg».proof.Proof.Gen.Pre_finite_inputs
import proofs.«128962_j16595753632514_1_alg».proof.Proof.SageRun
import proofs.«128962_j16595753632514_1_alg».proof.Proof.SageFold
import proofs.«128962_j16595753632514_1_alg».proof.Proof.SageBridge
import proofs.«128962_j16595753632514_1_alg».proof.Proof.SageRefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result and the reference's are one function of the arguments: the reference's three layers and
    skip connection read row by row are the specification's, and the kernel reads its bias rows and its slope through
    [1, 128] and [1, 1] views of the same arrays. -/
theorem result_eq (m : (ℓ : Loc Cert.KernelIdeal.nD Cert.KernelIdeal.τ Cert.KernelIdeal.sig) → Buf (Elt Ideal) ℓ) (c : Dev Cert.KernelIdeal.nD) :
    Cert.ReferenceIdeal.RefValue.finalOf (Cert.KernelIdeal.Fold.aX m c) (Cert.KernelIdeal.Fold.aE m c) (Cert.KernelIdeal.Fold.aW1l m c)
        (Cert.KernelIdeal.Fold.aB1l m c) (Cert.KernelIdeal.Fold.aW1r m c) (Cert.KernelIdeal.Fold.aW2l m c) (Cert.KernelIdeal.Fold.aB2l m c)
        (Cert.KernelIdeal.Fold.aW2r m c) (Cert.KernelIdeal.Fold.aW3l m c) (Cert.KernelIdeal.Fold.aB3l m c) (Cert.KernelIdeal.Fold.aW3r m c)
        (Cert.KernelIdeal.Fold.aWs m c) (Cert.KernelIdeal.Fold.aBs m c) (Cert.KernelIdeal.Fold.aA m c)
      = Cert.KernelIdeal.Fold.kF m c := by
  have hb : ∀ b : Cert.ReferenceIdeal.RefValue.Bv, Cert.KernelIdeal.Fold.rowB b = fun q => b (ix1 q) :=
    fun b => funext fun q => Cert.ReferenceIdeal.RefValue.biasrow_eq b _ q
  have hs : ∀ a : Cert.ReferenceIdeal.RefValue.Sc, Cert.KernelIdeal.Fold.slope a = a ix0 :=
    fun a => Cert.ReferenceIdeal.RefValue.slope_eq a _
  rw [Cert.ReferenceIdeal.RefValue.finalOf_eq]
  unfold Cert.KernelIdeal.Fold.kF Cert.KernelIdeal.Fold.h2 Cert.KernelIdeal.Fold.h1 Cert.KernelIdeal.Fold.lay Cert.KernelIdeal.Fold.k0
  simp only [hb, hs]
  rfl

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Run from memories that agree on the arguments, both programs end with the same result array. -/
theorem algebraic : Cert.algebraic_KernelIdeal_ReferenceIdeal := by
  intro m ρ m' ρ' _ hagree
  refine ⟨fun c => Cert.KernelIdeal.Fold.kF m c, ?_, ?_⟩
  · exact (θ_run Cert.KernelIdeal.defs _ _).mono
      (fun _ h c => ⟨(h c).1.trans (Cert.KernelIdeal.Fold.w8_v59 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8, e9, e10, e11, e12, e13⟩ := hagree c
    rw [e0, e1, e2, e3, e4, e5, e6, e7, e8, e9, e10, e11, e12, e13]
    exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
